-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x165 : S_.BroadcastsInDim S100000x165 (![] : Fin 0 → Fin S100000x165.rank)
  reducesTo_S100000x165_S_d0_1 : S100000x165.ReducesTo [0, 1] S_
  h_S_ : 0 < S_.numel
  bcast_S_S165x128 : S_.BroadcastsInDim S165x128 (![] : Fin 0 → Fin S165x128.rank)
  reducesTo_S165x128_S_d0_1 : S165x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x165 .f32) (main_arg1 : IVec S2x1600000 32) (main_arg2 : FVec F S165x128 .f32) (main_arg3 : FVec F S128 .f32) (main_arg4 : FVec F S128x2 .f32) (main_arg5 : FVec F S2 .f32) : IVec S_ 1 :=
  let main_v0 : FVec F S100000x165 .f32 := Host.absf main_arg0
  let main_cst : FVec F S_ .f32 := constant S_ .f32 0x7F800000#32
  let main_v1 : FVec F S100000x165 .f32 := broadcastInDim S100000x165 ![] bcast_S_S100000x165 main_cst
  let main_v2 : IVec S100000x165 1 := cmpf .olt main_v0 main_v1
  let main_c : IVec S_ 1 := constantI S_ 1 1#1
  let main_v3 : IVec S_ 1 := (fun x v => Host.reduce IntOp.andi x v reducesTo_S100000x165_S_d0_1 h_S_) main_v2 main_c
  let main_v4 : FVec F S165x128 .f32 := Host.absf main_arg2
  let main_cst_0 : FVec F S_ .f32 := constant S_ .f32 0x7F800000#32
  let main_v5 : FVec F S165x128 .f32 := broadcastInDim S165x128 ![] bcast_S_S165x128 main_cst_0
  let main_v6 : IVec S165x128 1 := cmpf .olt main_v4 main_v5
  let main_c_1 : IVec S_ 1 := constantI S_ 1 1#1
  let main_v7 : IVec S_ 1 := (fun x v => Host.reduce IntOp.andi x v reducesTo_S165x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg4
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg5 main_v13 main_v16
-- ==== Kernel.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x128 : Shape := ⟨2, ![100000, 128]⟩
abbrev S2000x165 : Shape := ⟨2, ![2000, 165]⟩
abbrev S2000x1 : Shape := ⟨2, ![2000, 1]⟩
abbrev S2000x128 : Shape := ⟨2, ![2000, 128]⟩
abbrev S1700000x128 : Shape := ⟨2, ![1700000, 128]⟩
abbrev S1x128 : Shape := ⟨2, ![1, 128]⟩
abbrev S100000x2 : Shape := ⟨2, ![100000, 2]⟩
abbrev S2000x2 : Shape := ⟨2, ![2000, 2]⟩
abbrev S1700000x2 : Shape := ⟨2, ![1700000, 2]⟩
abbrev S1x2 : Shape := ⟨2, ![1, 2]⟩

abbrev nBuf : Space → Nat
  | .hbm => 62
  | .vmem => 15
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S165x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000x128, .f32⟩
  | .hbm, ⟨38, _⟩ => ⟨S_, .f32⟩
  | .hbm, ⟨39, _⟩ => ⟨S100000x128, .f32⟩
  | .hbm, ⟨40, _⟩ => ⟨S1700000x1, .i32⟩
  | .hbm, ⟨41, _⟩ => ⟨S100000x128, .f32⟩
  | .hbm, ⟨42, _⟩ => ⟨S1x128, .f32⟩
  | .hbm, ⟨43, _⟩ => ⟨S100000x2, .f32⟩
  | .hbm, ⟨44, _⟩ => ⟨S_, .i32⟩
  | .hbm, ⟨45, _⟩ => ⟨S1700000, .i32⟩
  | .hbm, ⟨46, _⟩ => ⟨S1700000, .i1⟩
  | .hbm, ⟨47, _⟩ => ⟨S_, .i32⟩
  | .hbm, ⟨48, _⟩ => ⟨S1700000, .i32⟩
  | .hbm, ⟨49, _⟩ => ⟨S1700000, .i32⟩
  | .hbm, ⟨50, _⟩ => ⟨S1700000, .i32⟩
  | .hbm, ⟨51, _⟩ => ⟨S1700000x1, .i32⟩
  | .hbm, ⟨52, _⟩ => ⟨S1700000x2, .f32⟩
  | .hbm, ⟨53, _⟩ => ⟨S_, .f32⟩
  | .hbm, ⟨54, _⟩ => ⟨S100000x2, .f32⟩
  | .hbm, ⟨55, _⟩ => ⟨S1700000x1, .i32⟩
  | .hbm, ⟨56, _⟩ => ⟨S100000x2, .f32⟩
  | .hbm, ⟨57, _⟩ => ⟨S100000x2, .f32⟩
  | .hbm, ⟨58, _⟩ => ⟨S100000x2, .f32⟩
  | .hbm, ⟨59, _⟩ => ⟨S1x2, .f32⟩
  | .hbm, ⟨60, _⟩ => ⟨S100000x2, .f32⟩
  | .hbm, ⟨61, _⟩ => ⟨S100000x2, .f32⟩
  | .local _ .vmem, ⟨0, _⟩ => ⟨S2000x165, .f32⟩
  | .local _ .vmem, ⟨1, _⟩ => ⟨S2000x165, .f32⟩
  | .local _ .vmem, ⟨2, _⟩ => ⟨S165x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x2, .f32⟩
  | .local _ .vmem, ⟨13, _⟩ => ⟨S2000x2, .f32⟩
  | .local _ .vmem, ⟨14, _⟩ => ⟨S2000x2, .f32⟩
  | _, _ => ⟨S100000x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x165 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S165x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S2000x165_S2000x165_0_0 : ∀ a, (![0, 0] : Fin 2 → Nat) a + S2000x165.size a ≤ S2000x165.size a
  h_S2000x165 : 0 < S2000x165.numel
  bitsLt_bf16_f32 : FTy.bits .bf16 < FTy.bits .f32
  inb_S165x128_S165x128_0_0 : ∀ a, (![0, 0] : Fin 2 → Nat) a + S165x128.size a ≤ S165x128.size a
  h_S165x128 : 0 < S165x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  bcast_S_S100000x2 : S_.BroadcastsInDim S100000x2 (![] : Fin 0 → Fin S100000x2.rank)
  bcast_S100000x1_S100000x2_0_1 : S100000x1.BroadcastsInDim S100000x2 (![0, 1] : Fin 2 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  scatter_S100000_S1700000x1_S1700000_n_0_0_1_wf : ScatterDims.WF S100000 S1700000x1 S1700000 [] [0] [0] 1
  dot_S2000x165_S165x128_S2000x128_1_0_0_1_n_n_wf : DotDims.WF S2000x165 S165x128 S2000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x2_S2000x2_1_0_0_1_n_n_wf : DotDims.WF S2000x128 S128x2 S2000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x165.size a ≤ S100000x165.size a
  hwx0_0 : ∀ i : grid0.Coords, EltTy.bits .f32 = 32 ∨ (Rect.block (s := S100000x165) S2000x165.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S165x128.size a ≤ S165x128.size a
  hwx0_1 : ∀ i : grid0.Coords, EltTy.bits .f32 = 32 ∨ (Rect.block (s := S165x128) S165x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x2.size a ≤ S128x2.size a
  hwx1_3 : ∀ i : grid1.Coords, EltTy.bits .f32 = 32 ∨ (Rect.block (s := S128x2) S128x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x2.size a ≤ S100000x2.size a
  hwx1_4 : ∀ i : grid1.Coords, EltTy.bits .f32 = 32 ∨ (Rect.block (s := S100000x2) S2000x2.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S2000x165_S165x128_S2000x128_1_0_0_1_n_n : DotDims S2000x165 S165x128 S2000x128 where
  lhsContracting := [1]
  rhsContracting := [0]
  lhsNonContracting := [0]
  rhsNonContracting := [1]
  lhsBatch := []
  rhsBatch := []
  wf := dot_S2000x165_S165x128_S2000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

abbrev win0_0 : Pipeline.Window sig grid0 :=
  Pipeline.Window.ofSpec (Memref.whole main_arg0) S2000x165.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S165x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S2000x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x165 : Shape := ⟨2, ![100000, 165]⟩
abbrev S2x1600000 : Shape := ⟨2, ![2, 1600000]⟩
abbrev S165x128 : Shape := ⟨2, ![165, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S100000x128 : Shape := ⟨2, ![100000, 128]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x2 : Shape := ⟨2, ![100000, 2]⟩
abbrev S1700000x2 : Shape := ⟨2, ![1700000, 2]⟩
abbrev S1x2 : Shape := ⟨2, ![1, 2]⟩

abbrev nBuf : Space → Nat
  | .hbm => 125
  | .vmem => 0
  | .smem => 0
  | _ => 0

abbrev bufTy : (tb : Table) → Fin (tcTables nBuf tb) → BufTy
  | .hbm, ⟨0, _⟩ => ⟨S100000x165, .f32⟩
  | .hbm, ⟨1, _⟩ => ⟨S2x1600000, .i32⟩
  | .hbm, ⟨2, _⟩ => ⟨S165x128, .f32⟩
  | .hbm, ⟨3, _⟩ => ⟨S128, .f32⟩
  | .hbm, ⟨4, _⟩ => ⟨S128x2, .f32⟩
  | .hbm, ⟨5, _⟩ => ⟨S2, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x128, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x2, .f32⟩
  | .hbm, ⟨70, _⟩ => ⟨S100000, .i32⟩
  | .hbm, ⟨71, _⟩ => ⟨S1700000, .i32⟩
  | .hbm, ⟨72, _⟩ => ⟨S1700000, .i32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S1700000x1, .f32⟩
  | .hbm, ⟨107, _⟩ => ⟨S_, .i32⟩
  | .hbm, ⟨108, _⟩ => ⟨S1700000, .i32⟩
  | .hbm, ⟨109, _⟩ => ⟨S1700000, .i1⟩
  | .hbm, ⟨110, _⟩ => ⟨S_, .i32⟩
  | .hbm, ⟨111, _⟩ => ⟨S1700000, .i32⟩
  | .hbm, ⟨112, _⟩ => ⟨S1700000, .i32⟩
  | .hbm, ⟨113, _⟩ => ⟨S1700000, .i32⟩
  | .hbm, ⟨114, _⟩ => ⟨S1700000x1, .i32⟩
  | .hbm, ⟨115, _⟩ => ⟨S1700000x2, .f32⟩
  | .hbm, ⟨116, _⟩ => ⟨S1700000x2, .f32⟩
  | .hbm, ⟨117, _⟩ => ⟨S1700000x2, .f32⟩
  | .hbm, ⟨118, _⟩ => ⟨S_, .f32⟩
  | .hbm, ⟨119, _⟩ => ⟨S100000x2, .f32⟩
  | .hbm, ⟨120, _⟩ => ⟨S1700000x1, .i32⟩
  | .hbm, ⟨121, _⟩ => ⟨S100000x2, .f32⟩
  | .hbm, ⟨122, _⟩ => ⟨S1x2, .f32⟩
  | .hbm, ⟨123, _⟩ => ⟨S100000x2, .f32⟩
  | .hbm, ⟨124, _⟩ => ⟨S100000x2, .f32⟩
  | _, _ => ⟨S100000x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x165_S165x128_S100000x128_1_0_0_1_n_n_wf : DotDims.WF S100000x165 S165x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x2_S100000x2_1_0_0_1_n_n_wf : DotDims.WF S100000x128 S128x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def dot_S100000x165_S165x128_S100000x128_1_0_0_1_n_n : DotDims S100000x165 S165x128 S100000x128 where
  lhsContracting := [1]
  rhsContracting := [0]
  lhsNonContracting := [0]
  rhsNonContracting := [1]
  lhsBatch := []
  rhsBatch := []
  wf := dot_S100000x165_S165x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.KernelRun.lean ====
/-
  The idealized kernel's run with its RESULT kept.

  The program is seven segments: three stretches of host operations, the first launch, a stretch, the second
  launch, a last stretch. Its run ends with every unscoped buffer of a core at the contents the segments leave
  one after another — `W7`, a fold through the program from the launch memory. The frame statement keeps of
  that only the six arguments; here the same run keeps one buffer more, the result `main_v43`, at `W7`'s value
  for it. What that value is, as a function of the arguments, is read off the fold in the modules that import
  this one.
-/
import proofs.«135377_j6871947674334_2_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents and the arguments as launched. -/
theorem run_result : θ_run defs (onTc (τ := τ) (main (F := F))) ⟨m, fun _ => 0, ρ⟩ (fun r => ∀ c : Dev nD,
      r.2.mem ((c.tc : Thread nD τ).loc main_v43) = W7 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v43 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.ResultRun

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.KernelBlocks.lean ====
/-
  What each of the two launches leaves in its output array, as ONE function of the arrays it finds, index by index.

  Both launches walk the 100,000 rows in 50 blocks of 2,000; point t reads rows 2000·t … 2000·t + 1999 of its
  row-blocked operands, the whole of its small operands, and writes the same rows of its output.

  * The first launch stores, at row p and column q of a block, the row's weight times the product of the row of x
    with the column of W1 (`pay0_apply`: the matrix unit's product into a zero accumulator is the plain sum, a
    change of float format is the identity, the weight column is repeated along the row). So its output array is
    `prescaled`: entry (r, q) = d (r, 0) · Σ_j x (r, j) · W1 (j, q).
  * The second launch stores d·(max(d·a + b, 0) · W2) (`pay1_apply`), so its output array is `boundary`:
    entry (r, q) = d (r, 0) · Σ_k max (d (r, 0) · a (r, k) + b (0, k), 0) · W2 (k, q).

  From blocks to the array: a block's entry sits at (index × size + offset) on each axis, the printed index maps
  are decided once over the 50 points (row block t, column block 0), so what point t writes back is block t of
  the function above (`flushed0`, `flushed1`); row r is in the block of point r / 2000, so the blocks cover
  the array (`cover0`, `cover1`), and the array ends holding the function (`final0`, `final1`).
-/
import proofs.«135377_j6871947674334_2_alg».proof.Proof.Gen.KernelIdeal.Frame
import proofs.«135377_j6871947674334_2_alg».proof.Proof.LibMatmul2d
import proofs.«135377_j6871947674334_2_alg».proof.Proof.LibRowwise
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat Cfg Window)
open scoped BigOperators

/-! ## Layouts -/

theorem hz : (![0, 0] : Fin 2 → Nat) = fun _ => 0 := funext fun a => by fin_cases a <;> rfl

/-! ## The two bodies at an entry of a block -/

/-- The first body's stored value at (p, q): the row's weight times row p of x against column q of W1. -/
theorem pay0_apply (x0 : Vec Ideal S2000x165 .f32) (x1 : Vec Ideal S165x128 .f32) (x2 : Vec Ideal S2000x1 .f32)
    (p : Fin 2000) (q : Fin 128) :
    k0_pay1 (F := Ideal) x0 x1 x2 (ix2 p q)
      = x2 (ix2 p (0 : Fin 1)) * ∑ j : Fin 165, x0 (ix2 p j) * x1 (ix2 j q) := by
  simp only [k0_pay1]
  rw [mulf_apply, Cert.LibRowwise.broadcastTo_a1_ab_apply, shapeCast_self,
    show dot_S2000x165_S165x128_S2000x128_1_0_0_1_n_n = DotDims.plain 2000 165 128 from rfl]
  exact congrArg (x2 (ix2 p (0 : Fin 1)) * ·)
    (Cert.LibMatmul2d.matmul_plain_apply (truncf .bf16 x0 bitsLt_bf16_f32) (truncf .bf16 x1 bitsLt_bf16_f32) p q)

/-- The second body's stored value at (p, q). -/
theorem pay1_apply (x0 : Vec Ideal S2000x1 .f32) (x1 : Vec Ideal S2000x128 .f32) (x2 : Vec Ideal S1x128 .f32)
    (x3 : Vec Ideal S128x2 .f32) (p : Fin 2000) (q : Fin 2) :
    k1_pay1 (F := Ideal) x0 x1 x2 x3 (ix2 p q)
      = x0 (ix2 p (0 : Fin 1))
        * ∑ k : Fin 128, max (x0 (ix2 p (0 : Fin 1)) * x1 (ix2 p k) + x2 (ix2 (0 : Fin 1) k)) 0 * x3 (ix2 k q) := by
  simp only [k1_pay1]
  rw [mulf_apply, Cert.LibRowwise.broadcastTo_a1_ab_apply, shapeCast_self,
    show dot_S2000x128_S128x2_S2000x2_1_0_0_1_n_n = DotDims.plain 2000 128 2 from rfl]
  refine (congrArg (x0 (ix2 p (0 : Fin 1)) * ·)
    (Cert.LibMatmul2d.matmul_plain_apply (truncf .bf16 (maximumf
        (addf (mulf (broadcastTo S2000x128 x0 broadcasts_S2000x1_S2000x128) (shapeCast S2000x128 x1 shapeCasts_S2000x128_S2000x128))
          (broadcastTo S2000x128 (shapeCast S1x128 x2 shapeCasts_S1x128_S1x128) broadcasts_S1x128_S2000x128))
        (broadcast S2000x128 (FloatOps.ofBits .f32 0x00000000#32))) bitsLt_bf16_f32)
      (truncf .bf16 x3 bitsLt_bf16_f32) p q)).trans ?_
  refine congrArg _ (Finset.sum_congr rfl fun k _ => ?_)
  refine congrArg (· * x3 (ix2 k q)) ?_
  show max ((mulf (F := Ideal) (φ := .f32) (broadcastTo S2000x128 x0 broadcasts_S2000x1_S2000x128) (shapeCast S2000x128 x1 shapeCasts_S2000x128_S2000x128) (ix2 p k))
      + broadcastTo S2000x128 (shapeCast S1x128 x2 shapeCasts_S1x128_S1x128) broadcasts_S1x128_S2000x128 (ix2 p k))
    (Ideal.ofBits .f32 0x00000000#32) = _
  rw [mulf_apply, Cert.LibRowwise.broadcastTo_a1_ab_apply, shapeCast_self, broadcastTo_1b_ab_apply, shapeCast_self,
    Ideal.ofBits_zero_f32]

/-! ## The first launch: blocks to the array -/

section Region0

variable (V : (c : Dev nD) → (b : Ref sig .tc) → Buf (Elt Ideal) ((c : Thread nD τ).loc b))

/-- A weight times a row against a column, each factor read at a given index. -/
def rowTerm (a0 : S100000x165.Idx → EReal) (a2 : S165x128.Idx → EReal) (d : S100000x1.Idx → EReal)
    (id : S100000x1.Idx) (i0 : Fin 165 → S100000x165.Idx) (i2 : Fin 165 → S165x128.Idx) : EReal :=
  d id * ∑ j : Fin 165, a0 (i0 j) * a2 (i2 j)

/-- Entry (r, q) of the first launch's output: the row's weight times row r of x against column q of W1. -/
def prescaledAt (a0 : S100000x165.Idx → EReal) (a2 : S165x128.Idx → EReal) (d : S100000x1.Idx → EReal)
    (r : Fin 100000) (q : Fin 128) : EReal :=
  rowTerm a0 a2 d (ix2 r (0 : Fin 1)) (fun j => ix2 r j) (fun j => ix2 j q)

theorem prescaledAt_eq (a0 : S100000x165.Idx → EReal) (a2 : S165x128.Idx → EReal) (d : S100000x1.Idx → EReal)
    (r : Fin 100000) (q : Fin 128) :
    prescaledAt a0 a2 d r q = d (ix2 r (0 : Fin 1)) * ∑ j : Fin 165, a0 (ix2 r j) * a2 (ix2 j q) := rfl

def prescaled (a0 : S100000x165.Idx → EReal) (a2 : S165x128.Idx → EReal) (d : S100000x1.Idx → EReal) :
    S100000x128.Idx → EReal :=
  fun i => prescaledAt a0 a2 d ⟨(i 0).val, idx2_lt0 i⟩ ⟨(i 1).val, idx2_lt1 i⟩

/-- The printed index maps over the 50 points: the row-blocked windows are at row block t, column block 0; the
    matrix W1 is at block (0, 0). -/
theorem idx_facts0 : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of `prescaled` of the arrays the launch finds. -/
theorem flushed0 (c : Dev nD) (t : Fin cfg0.N) :
    (dat0 V c).flushed 3 t
      = ((cfg0.win 3).blk t).view.read (Elt Ideal) (prescaled (V c main_arg0) (V c main_arg2) (V c main_v15)) := by
  show (cfg0.win 3).cut (grid0.coords t) ((dat0 V c).after 3 t) = _
  rw [after0_3]
  unfold out0_3
  rw [View.canon_unit_zero hz]
  simp only [View.ld_unit_zero (S := S2000x165) hz, View.ld_unit_zero (S := S165x128) hz, View.ld_unit_zero (S := S2000x1) hz]
  obtain ⟨e30, e31, e00, e01, e10, e11, e20, e21⟩ := idx_facts0 t
  funext y
  obtain ⟨p, q, rfl⟩ : ∃ (p : Fin 2000) (q : Fin 128), y = ix2 p q := ⟨y 0, y 1, eq_ix2 y⟩
  refine (pay0_apply (iblk0 V c 0 t) (iblk0 V c 1 t) (iblk0 V c 2 t) p q).trans ?_
  have hp := p.isLt
  have hq := q.isLt
  have ht := t.isLt
  have h2 : ((cfg0.win 2).blk t).view.emb (ix2 p (0 : Fin 1))
      = ix2 (n0 := 100000) (n1 := 1) ⟨((((cfg0.win 3).blk t).view.emb (ix2 p q)) 0).val, idx2_lt0 _⟩ (0 : Fin 1) := by
    funext a; apply Fin.ext
    match a with
    | ⟨0, _⟩ => show win0_2.index t (0 : Fin 2) * 2000 + 1 * p.val = win0_3.index t (0 : Fin 2) * 2000 + 1 * p.val; omega
    | ⟨1, _⟩ => show win0_2.index t (1 : Fin 2) * 1 + 1 * 0 = 0; omega
  have h0 : (fun j : Fin 165 => ((cfg0.win 0).blk t).view.emb (ix2 p j))
      = fun j : Fin 165 => ix2 (n0 := 100000) (n1 := 165) ⟨((((cfg0.win 3).blk t).view.emb (ix2 p q)) 0).val, idx2_lt0 _⟩ j := by
    funext j
    have hj := j.isLt
    funext a; apply Fin.ext
    match a with
    | ⟨0, _⟩ => show win0_0.index t (0 : Fin 2) * 2000 + 1 * p.val = win0_3.index t (0 : Fin 2) * 2000 + 1 * p.val; omega
    | ⟨1, _⟩ => show win0_0.index t (1 : Fin 2) * 165 + 1 * j.val = j.val; omega
  have h1 : (fun j : Fin 165 => ((cfg0.win 1).blk t).view.emb (ix2 j q))
      = fun j : Fin 165 => ix2 (n0 := 165) (n1 := 128) j ⟨((((cfg0.win 3).blk t).view.emb (ix2 p q)) 1).val, idx2_lt1 _⟩ := by
    funext j
    have hj := j.isLt
    funext a; apply Fin.ext
    match a with
    | ⟨0, _⟩ => show win0_1.index t (0 : Fin 2) * 165 + 1 * j.val = j.val; omega
    | ⟨1, _⟩ => show win0_1.index t (1 : Fin 2) * 128 + 1 * q.val = win0_3.index t (1 : Fin 2) * 128 + 1 * q.val; omega
  show rowTerm (V c main_arg0) (V c main_arg2) (V c main_v15) (((cfg0.win 2).blk t).view.emb (ix2 p (0 : Fin 1)))
      (fun j => ((cfg0.win 0).blk t).view.emb (ix2 p j)) (fun j => ((cfg0.win 1).blk t).view.emb (ix2 j q))
    = rowTerm (V c main_arg0) (V c main_arg2) (V c main_v15)
        (ix2 (n0 := 100000) (n1 := 1) ⟨((((cfg0.win 3).blk t).view.emb (ix2 p q)) 0).val, idx2_lt0 _⟩ (0 : Fin 1))
        (fun j => ix2 (n0 := 100000) (n1 := 165) ⟨((((cfg0.win 3).blk t).view.emb (ix2 p q)) 0).val, idx2_lt0 _⟩ j)
        (fun j => ix2 (n0 := 165) (n1 := 128) j ⟨((((cfg0.win 3).blk t).view.emb (ix2 p q)) 1).val, idx2_lt1 _⟩)
  rw [h2, h0, h1]

/-- An index of the output is in point t's block iff each coordinate is in the block's range on its axis. -/
theorem mem_blk0 (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v16).slice (win0_3.rect t)).set ↔ _
  rw [View.set_slice_whole, Rect.mem_set_unit]
  exact Iff.rfl

/-- Row r is in the block of point r / 2000: the 50 blocks cover the output. -/
theorem cover0 (i : S100000x128.Idx) :
    ∃ t : Fin cfg0.N, (cfg0.win 3).flush t = true ∧ i ∈ ((cfg0.win 3).blk t).view.set := by
  have hN : cfg0.N = 50 := N_0
  have hi0 : (i 0).val < 100000 := idx2_lt0 i
  have hi1 : (i 1).val < 128 := idx2_lt1 i
  refine ⟨⟨(i 0).val / 2000, by rw [hN]; omega⟩, flush0_3 _, ?_⟩
  rw [mem_blk0]
  obtain ⟨e30, e31, -⟩ := idx_facts0 ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e30]; show (i 0).val / 2000 * 2000 ≤ (i 0).val ∧ (i 0).val < (i 0).val / 2000 * 2000 + 2000; omega
  | ⟨1, _⟩ =>
    show win0_3.index _ (1 : Fin 2) * 128 ≤ (i 1).val ∧ (i 1).val < win0_3.index _ (1 : Fin 2) * 128 + 128
    rw [e31]; omega

/-- THE FIRST LAUNCH'S OUTPUT ARRAY after the launch. -/
theorem final0 (c : Dev nD) :
    (dat0 V c).arrAt 3 cfg0.N = prescaled (V c main_arg0) (V c main_arg2) (V c main_v15) :=
  (dat0 V c).arrAt_eq_of_cover 3 _ (fun t _ => flushed0 V c t) cover0

end Region0

/-! ## The second launch: blocks to the array -/

section Region1

variable (V : (c : Dev nD) → (b : Ref sig .tc) → Buf (Elt Ideal) ((c : Thread nD τ).loc b))

/-- A weight times (weight · row + bias row, cut below at 0) against a column, each factor read at a given index. -/
def hiddenTerm (a : S100000x128.Idx → EReal) (d : S100000x1.Idx → EReal) (b : S1x128.Idx → EReal) (w : S128x2.Idx → EReal)
    (id : S100000x1.Idx) (ia : Fin 128 → S100000x128.Idx) (ib : Fin 128 → S1x128.Idx) (iw : Fin 128 → S128x2.Idx) : EReal :=
  d id * ∑ k : Fin 128, max (d id * a (ia k) + b (ib k)) 0 * w (iw k)

/-- Entry (r, q) of the second launch's output. -/
def boundaryAt (a : S100000x128.Idx → EReal) (d : S100000x1.Idx → EReal) (b : S1x128.Idx → EReal) (w : S128x2.Idx → EReal)
    (r : Fin 100000) (q : Fin 2) : EReal :=
  hiddenTerm a d b w (ix2 r (0 : Fin 1)) (fun k => ix2 r k) (fun k => ix2 (0 : Fin 1) k) (fun k => ix2 k q)

theorem boundaryAt_eq (a : S100000x128.Idx → EReal) (d : S100000x1.Idx → EReal) (b : S1x128.Idx → EReal) (w : S128x2.Idx → EReal)
    (r : Fin 100000) (q : Fin 2) :
    boundaryAt a d b w r q = d (ix2 r (0 : Fin 1))
      * ∑ k : Fin 128, max (d (ix2 r (0 : Fin 1)) * a (ix2 r k) + b (ix2 (0 : Fin 1) k)) 0 * w (ix2 k q) := rfl

def boundary (a : S100000x128.Idx → EReal) (d : S100000x1.Idx → EReal) (b : S1x128.Idx → EReal) (w : S128x2.Idx → EReal) :
    S100000x2.Idx → EReal :=
  fun i => boundaryAt a d b w ⟨(i 0).val, idx2_lt0 i⟩ ⟨(i 1).val, idx2_lt1 i⟩

theorem idx_facts1 : ∀ t : Fin cfg1.N, win1_4.index t (0 : Fin 2) = t.val ∧ win1_4.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- WHAT POINT t WRITES BACK is block t of `boundary` of the arrays the launch finds. -/
theorem flushed1 (c : Dev nD) (t : Fin cfg1.N) :
    (dat1 V c).flushed 4 t
      = ((cfg1.win 4).blk t).view.read (Elt Ideal) (boundary (V c main_v26) (V c main_v15) (V c main_v27) (V c main_arg4)) := by
  show (cfg1.win 4).cut (grid1.coords t) ((dat1 V c).after 4 t) = _
  rw [after1_4]
  unfold out1_4
  rw [View.canon_unit_zero hz]
  simp only [View.ld_unit_zero (S := S2000x128) hz, View.ld_unit_zero (S := S2000x1) hz, View.ld_unit_zero (S := S1x128) hz,
    View.ld_unit_zero (S := S128x2) hz]
  obtain ⟨e40, e41, e00, e01, e10, e11, e20, e21, e30, e31⟩ := idx_facts1 t
  funext y
  obtain ⟨p, q, rfl⟩ : ∃ (p : Fin 2000) (q : Fin 2), y = ix2 p q := ⟨y 0, y 1, eq_ix2 y⟩
  refine (pay1_apply (iblk1 V c 1 t) (iblk1 V c 0 t) (iblk1 V c 2 t) (iblk1 V c 3 t) p q).trans ?_
  have hp := p.isLt
  have hq := q.isLt
  have ht := t.isLt
  have h1 : ((cfg1.win 1).blk t).view.emb (ix2 p (0 : Fin 1))
      = ix2 (n0 := 100000) (n1 := 1) ⟨((((cfg1.win 4).blk t).view.emb (ix2 p q)) 0).val, idx2_lt0 _⟩ (0 : Fin 1) := by
    funext a; apply Fin.ext
    match a with
    | ⟨0, _⟩ => show win1_1.index t (0 : Fin 2) * 2000 + 1 * p.val = win1_4.index t (0 : Fin 2) * 2000 + 1 * p.val; omega
    | ⟨1, _⟩ => show win1_1.index t (1 : Fin 2) * 1 + 1 * 0 = 0; omega
  have h0 : (fun k : Fin 128 => ((cfg1.win 0).blk t).view.emb (ix2 p k))
      = fun k : Fin 128 => ix2 (n0 := 100000) (n1 := 128) ⟨((((cfg1.win 4).blk t).view.emb (ix2 p q)) 0).val, idx2_lt0 _⟩ k := by
    funext k
    have hk := k.isLt
    funext a; apply Fin.ext
    match a with
    | ⟨0, _⟩ => show win1_0.index t (0 : Fin 2) * 2000 + 1 * p.val = win1_4.index t (0 : Fin 2) * 2000 + 1 * p.val; omega
    | ⟨1, _⟩ => show win1_0.index t (1 : Fin 2) * 128 + 1 * k.val = k.val; omega
  have h2 : (fun k : Fin 128 => ((cfg1.win 2).blk t).view.emb (ix2 (0 : Fin 1) k))
      = fun k : Fin 128 => ix2 (n0 := 1) (n1 := 128) (0 : Fin 1) k := by
    funext k
    have hk := k.isLt
    funext a; apply Fin.ext
    match a with
    | ⟨0, _⟩ => show win1_2.index t (0 : Fin 2) * 1 + 1 * 0 = 0; omega
    | ⟨1, _⟩ => show win1_2.index t (1 : Fin 2) * 128 + 1 * k.val = k.val; omega
  have h3 : (fun k : Fin 128 => ((cfg1.win 3).blk t).view.emb (ix2 k q))
      = fun k : Fin 128 => ix2 (n0 := 128) (n1 := 2) k ⟨((((cfg1.win 4).blk t).view.emb (ix2 p q)) 1).val, idx2_lt1 _⟩ := by
    funext k
    have hk := k.isLt
    funext a; apply Fin.ext
    match a with
    | ⟨0, _⟩ => show win1_3.index t (0 : Fin 2) * 128 + 1 * k.val = k.val; omega
    | ⟨1, _⟩ => show win1_3.index t (1 : Fin 2) * 2 + 1 * q.val = win1_4.index t (1 : Fin 2) * 2 + 1 * q.val; omega
  show hiddenTerm (V c main_v26) (V c main_v15) (V c main_v27) (V c main_arg4) (((cfg1.win 1).blk t).view.emb (ix2 p (0 : Fin 1)))
      (fun k => ((cfg1.win 0).blk t).view.emb (ix2 p k)) (fun k => ((cfg1.win 2).blk t).view.emb (ix2 (0 : Fin 1) k))
      (fun k => ((cfg1.win 3).blk t).view.emb (ix2 k q))
    = hiddenTerm (V c main_v26) (V c main_v15) (V c main_v27) (V c main_arg4)
        (ix2 (n0 := 100000) (n1 := 1) ⟨((((cfg1.win 4).blk t).view.emb (ix2 p q)) 0).val, idx2_lt0 _⟩ (0 : Fin 1))
        (fun k => ix2 (n0 := 100000) (n1 := 128) ⟨((((cfg1.win 4).blk t).view.emb (ix2 p q)) 0).val, idx2_lt0 _⟩ k)
        (fun k => ix2 (n0 := 1) (n1 := 128) (0 : Fin 1) k)
        (fun k => ix2 (n0 := 128) (n1 := 2) k ⟨((((cfg1.win 4).blk t).view.emb (ix2 p q)) 1).val, idx2_lt1 _⟩)
  rw [h1, h0, h2, h3]

theorem mem_blk1 (t : Fin cfg1.N) (i : S100000x2.Idx) :
    i ∈ ((cfg1.win 4).blk t).view.set ↔ ∀ a : Fin 2, win1_4.index t a * S2000x2.size a ≤ (i a).val
      ∧ (i a).val < win1_4.index t a * S2000x2.size a + S2000x2.size a := by
  show i ∈ ((View.whole main_v28).slice (win1_4.rect t)).set ↔ _
  rw [View.set_slice_whole, Rect.mem_set_unit]
  exact Iff.rfl

theorem cover1 (i : S100000x2.Idx) :
    ∃ t : Fin cfg1.N, (cfg1.win 4).flush t = true ∧ i ∈ ((cfg1.win 4).blk t).view.set := by
  have hN : cfg1.N = 50 := N_1
  have hi0 : (i 0).val < 100000 := idx2_lt0 i
  have hi1 : (i 1).val < 2 := idx2_lt1 i
  refine ⟨⟨(i 0).val / 2000, by rw [hN]; omega⟩, flush1_4 _, ?_⟩
  rw [mem_blk1]
  obtain ⟨e40, e41, -⟩ := idx_facts1 ⟨(i 0).val / 2000, by rw [hN]; omega⟩
  intro a
  match a with
  | ⟨0, _⟩ =>
    show win1_4.index _ (0 : Fin 2) * 2000 ≤ (i 0).val ∧ (i 0).val < win1_4.index _ (0 : Fin 2) * 2000 + 2000
    rw [e40]; show (i 0).val / 2000 * 2000 ≤ (i 0).val ∧ (i 0).val < (i 0).val / 2000 * 2000 + 2000; omega
  | ⟨1, _⟩ =>
    show win1_4.index _ (1 : Fin 2) * 2 ≤ (i 1).val ∧ (i 1).val < win1_4.index _ (1 : Fin 2) * 2 + 2
    rw [e41]; omega

/-- THE SECOND LAUNCH'S OUTPUT ARRAY after the launch. -/
theorem final1 (c : Dev nD) :
    (dat1 V c).arrAt 4 cfg1.N = boundary (V c main_v26) (V c main_v15) (V c main_v27) (V c main_arg4) :=
  (dat1 V c).arrAt_eq_of_cover 4 _ (fun t _ => flushed1 V c t) cover1

end Region1

end Cert.KernelIdeal.Blocks

end
-- ==== Proof.LibRowGather.lean ====
/-
  Picking rows of a table at run-time row numbers (x[idx] along the first axis), read one entry at a time.

  The host's gather takes a table x of R rows (each a single entry, or a row of C entries) and a column of N
  integer row numbers (an N × 1 array). With the dimension numbers fixed below the result has one row per
  row number: result row e is the table's row at the row number idx(e, 0) READ AS A SIGNED INTEGER AND
  CLAMPED into [0, R − 1] — a negative row number reads row 0, one past the end reads the last row. So

      result (e, q) = x (rowOf (idx (e, 0)), q)          (a table of rows)
      result (e)    = x (rowOf (idx (e, 0)))             (a table of single entries)

  where rowOf b = min (max (signed b) 0) (R − 1). The file derives both from the general definition of the
  operand index (clamped start + batching coordinate + offset coordinate on each table axis), for ANY extents
  R, C, N and any width of the integer row numbers:

    * on the row axis, which the row number addresses and which is collapsed, the start is the clamped row
      number and the offset coordinate is 0;
    * on the column axis the start is 0 and the offset coordinate is the result's column.

  Last, a row number that is already a row of the table (0 ≤ signed b = r < R) is its own clamp: rowOf b = r.
-/
import Idealize.ShloMosaic.PureOps.Ideal
import Idealize.ShloMosaic.PureOps.Dims
import Idealize.ShloMosaic.Lib.ValueIdx

noncomputable section

namespace Cert.LibRowGather

open Idealize.ShloMosaic Idealize.ShloMosaic.ValueIdx

variable {α : Type} {R C N : Nat}

/-- The row of an R-row table that a row number addresses: the number read signed, a negative one taken
    as 0, one past the end as the last row. -/
def rowOf (R : Nat) (hR : 0 < R) {w : Nat} (b : BitVec w) : Fin R := ⟨min b.toInt.toNat (R - 1), by omega⟩

/-- A row number that is a row of the table addresses that row. -/
theorem rowOf_eq_of_toInt {w : Nat} (hR : 0 < R) (b : BitVec w) (r : Fin R) (h : b.toInt = (r.val : Int)) :
    rowOf R hR b = r := by
  refine Fin.ext ?_
  show min b.toInt.toNat (R - 1) = r.val
  have hr := r.isLt
  rw [h]
  omega

/-! ## Rows of C entries -/

/-- The dimension numbers of a row gather: table [R, C], row numbers [N, 1] with the index vector on axis 1,
    result [N, C]; axis 1 of the result is the offset axis, axis 0 of the table is collapsed (a slice is one
    row) and is the axis the row number addresses. -/
abbrev rowDims (wf : GatherDims.WF (⟨2, ![R, C]⟩ : Shape) ⟨2, ![N, 1]⟩ ⟨2, ![N, C]⟩ [1] [0] [] [0] [] 1 ![1, C]) :
    GatherDims (⟨2, ![R, C]⟩ : Shape) ⟨2, ![N, 1]⟩ ⟨2, ![N, C]⟩ :=
  { offsetDims := [1], collapsedSliceDims := [0], operandBatchingDims := [], startIndicesBatchingDims := [],
    startIndexMap := [0], indexVectorDim := 1, sliceSizes := ![1, C], wf := wf }

/-- THE ROW GATHER READ AT ONE ENTRY: entry (e, q) of the result is the table's entry in column q of the row
    that row number e addresses. -/
theorem rowGather_apply {w : Nat} (hR : 0 < R)
    (wf : GatherDims.WF (⟨2, ![R, C]⟩ : Shape) ⟨2, ![N, 1]⟩ ⟨2, ![N, C]⟩ [1] [0] [] [0] [] 1 ![1, C])
    (x : (⟨2, ![R, C]⟩ : Shape).Idx → α) (idx : IVec (⟨2, ![N, 1]⟩ : Shape) w) (e : Fin N) (q : Fin C) :
    Host.gather (rowDims wf) x idx (ix2 e q) = x (ix2 (rowOf R hR (idx (ix2 e (0 : Fin 1)))) q) := by
  unfold Host.gather
  congr 1
  funext a
  refine Fin.ext ?_
  match a with
  | ⟨0, _⟩ =>
    show (rowDims wf).start (ix2 e q) idx 0 + (rowDims wf).batchCoord (ix2 e q) 0 + (rowDims wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hsi : (rowDims wf).siIdx (ix2 e q) ⟨List.idxOf (0 : Fin 2) (rowDims wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims wf).start (ix2 e q) idx 1 + (rowDims wf).batchCoord (ix2 e q) 1 + (rowDims wf).offCoord (ix2 e q) 1 = _
    rw [GatherDims.batchCoord_eq_zero _ _ _ List.not_mem_nil]
    have hst : (rowDims wf).start (ix2 e q) idx 1 = 0 := by
      unfold GatherDims.start
      rw [dif_neg (show ¬ (1 : Fin 2) ∈ [(0 : Fin 2)] by decide)]
    rw [hst]
    unfold GatherDims.offCoord
    rw [dif_pos (show (1 : Fin 2) ∈ (rowDims wf).sKept from show (1 : Fin 2) ∈ [(1 : Fin 2)] by decide)]
    simp only [Nat.zero_add, Nat.add_zero]
    rfl

/-! ## Single entries -/

/-- The dimension numbers of an entry gather: table [R], row numbers [N, 1] with the index vector on axis 1,
    result [N]; the table's one axis is collapsed and is the axis the row number addresses. -/
abbrev entryDims (wf : GatherDims.WF (⟨1, ![R]⟩ : Shape) ⟨2, ![N, 1]⟩ ⟨1, ![N]⟩ [] [0] [] [0] [] 1 ![1]) :
    GatherDims (⟨1, ![R]⟩ : Shape) ⟨2, ![N, 1]⟩ ⟨1, ![N]⟩ :=
  { offsetDims := [], collapsedSliceDims := [0], operandBatchingDims := [], startIndicesBatchingDims := [],
    startIndexMap := [0], indexVectorDim := 1, sliceSizes := ![1], wf := wf }

/-- THE ENTRY GATHER READ AT ONE ENTRY: entry e of the result is the table's entry at the row that row number
    e addresses. -/
theorem entryGather_apply {w : Nat} (hR : 0 < R)
    (wf : GatherDims.WF (⟨1, ![R]⟩ : Shape) ⟨2, ![N, 1]⟩ ⟨1, ![N]⟩ [] [0] [] [0] [] 1 ![1])
    (x : (⟨1, ![R]⟩ : Shape).Idx → α) (idx : IVec (⟨2, ![N, 1]⟩ : Shape) w) (e : Fin N) :
    Host.gather (entryDims wf) x idx (ix1 e) = x (ix1 (rowOf R hR (idx (ix2 e (0 : Fin 1))))) := by
  unfold Host.gather
  congr 1
  funext a
  obtain rfl : a = 0 := Subsingleton.elim _ _
  refine Fin.ext ?_
  show (entryDims wf).start (ix1 e) idx 0 + (entryDims wf).batchCoord (ix1 e) 0 + (entryDims wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryDims wf).startIndexMap from List.mem_singleton.mpr rfl)]
  have hsi : (entryDims wf).siIdx (ix1 e) ⟨List.idxOf (0 : Fin 1) (entryDims wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end Cert.LibRowGather

end
-- ==== Proof.GraphArrays.lean ====
/-
  The graph's arrays, as the host computes them from the integer input `edge_index` (two rows of 1,600,000
  node numbers: sources and destinations), for 100,000 nodes.

    * `srcRaw`, `dstRaw`: a row of `edge_index` followed by the node numbers 0 … 99,999 — every node gets
      a self-loop —, 1,700,000 entries.
    * `normIdx a`: NumPy's reading of an index: a negative entry has 100,000 added to it.
    * `degree`: for each node, the number of edges whose RAW destination is that node (a scatter-add of
      ones into zeros; a destination that is not a node lands nowhere).
    * `dinvVec`: `rsqrt (degree)` where the degree is positive, 0 elsewhere.

  Then the graph itself, in the vocabulary of the layer law:

    * `srcNode e`, `dstNode e`: the row a gather at `normIdx srcRaw`, `normIdx dstRaw` reads for edge e
      (the normalised number read signed and clamped into the table);
    * `landsOn e v`: the raw destination of e, read signed, is v — where a scatter-add puts edge e's row;
    * `nodeWeight u`: `dinvVec` at u.

  Two facts are all the mathematics needs of these arrays, whatever `edge_index` holds:

    * `dst_of_lands`: an edge that lands on v has `dstNode e = v` — a raw destination that is a node is
      not negative, so normalising leaves it alone, and it is its own clamp;
    * `nodeWeight_real`: every weight is a real number — `rsqrt` of a positive real is real, of +∞ it is
      0, and where the degree is not positive the weight is 0 — so no finiteness of the degree is needed.
-/
import Idealize.ShloMosaic.PureOps.Ideal
import Idealize.ShloMosaic.PureOps.Ideal.Laws
import Idealize.ShloMosaic.Lib.ValueIdx
import Idealize.ShloMosaic.Lib.Pipeline.Value
import proofs.«135377_j6871947674334_2_alg».proof.Proof.LibRowGather

noncomputable section

namespace Cert.GraphArrays

open Idealize.ShloMosaic Idealize.ShloMosaic.ValueIdx Cert.LibRowGather

/-! ## Shapes and their side conditions -/

abbrev SN : Shape := ⟨1, ![100000]⟩
abbrev SE : Shape := ⟨1, ![1700000]⟩
abbrev SE1 : Shape := ⟨2, ![1700000, 1]⟩
abbrev SI : Shape := ⟨2, ![2, 1600000]⟩
abbrev SI1 : Shape := ⟨2, ![1, 1600000]⟩
abbrev SE0 : Shape := ⟨1, ![1600000]⟩
abbrev S0 : Shape := ⟨0, ![]⟩

theorem slice_src : SI.Slices ![0, 0] SI1 := by decide
theorem slice_dst : SI.Slices ![1, 0] SI1 := by decide
theorem cast_row : SI1.ShapeCasts SE0 := by decide
theorem cat_loops : Shape.Concatenates [SE0, SN] SE 0 := by decide
theorem bc_scalar_edges : S0.BroadcastsInDim SE (![] : Fin 0 → Fin SE.rank) := by decide
theorem bc_scalar_nodes : S0.BroadcastsInDim SN (![] : Fin 0 → Fin SN.rank) := by decide
theorem bc_edges_col : SE.BroadcastsInDim SE1 (![0] : Fin 1 → Fin SE1.rank) := by decide

/-- The dimension numbers of the degree count: a table [100000], row numbers [1700000, 1], updates [1700000]. -/
def degDims : ScatterDims SN SE1 SE where
  updateWindowDims := []
  insertedWindowDims := [0]
  scatterDimsToOperandDims := [0]
  indexVectorDim := 1
  wf := by decide

/-! ## The arrays -/

/-- Row `row` of `edge_index` followed by the node numbers 0 … 99,999. -/
def endpoints (row : Nat) (h : SI.Slices ![row, 0] SI1) (x1 : IVec SI 32) : IVec SE 32 :=
  concatenate SE 0 [⟨SE0, shapeCast _ (extractStridedSlice SI1 ![row, 0] x1 h) cast_row⟩, ⟨SN, iotaInDim SN 32 0⟩] cat_loops

def srcRaw (x1 : IVec SI 32) : IVec SE 32 := endpoints 0 slice_src x1
def dstRaw (x1 : IVec SI 32) : IVec SE 32 := endpoints 1 slice_dst x1

/-- NumPy's reading of an index array: 100,000 added to the negative entries. -/
def normIdx (a : IVec SE 32) : IVec SE 32 :=
  select (cmpi .slt a (broadcastInDim SE ![] bc_scalar_edges (constantI S0 32 0#32)))
    (addi a (broadcastInDim SE ![] bc_scalar_edges (constantI S0 32 100000#32))) a

/-- The number of edges whose raw destination is each node. -/
def degree (x1 : IVec SI 32) : FVec Ideal SN .f32 :=
  Host.scatterAdd degDims (broadcastInDim SN ![] bc_scalar_nodes (constant S0 .f32 0x00000000#32))
    (broadcastInDim SE1 ![0] bc_edges_col (dstRaw x1))
    (broadcastInDim SE ![] bc_scalar_edges (constant S0 .f32 0x3F800000#32))

/-- `rsqrt (degree)` where the degree is positive, 0 elsewhere. -/
def dinvVec (x1 : IVec SI 32) : FVec Ideal SN .f32 :=
  select (cmpf .ogt (degree x1) (broadcastInDim SN ![] bc_scalar_nodes (constant S0 .f32 0x00000000#32)))
    (Host.rsqrt (degree x1))
    (broadcastInDim SN ![] bc_scalar_nodes (id (constant S0 .f32 0x00000000#32)))

/-! ## Read at an index -/

theorem normIdx_apply (a : IVec SE 32) (i : SE.Idx) :
    normIdx a i = Scalar.select (IntOp.cmpi .slt (a i) 0#32) (IntOp.addi (a i) 100000#32) (a i) := by
  have h0 : broadcastInDim SE ![] bc_scalar_edges (constantI S0 32 0#32) i = 0#32 :=
    broadcastInDim_apply _ bc_scalar_edges _ i (fun a => a.elim0) (fun a => a.elim0)
  have h1 : broadcastInDim SE ![] bc_scalar_edges (constantI S0 32 100000#32) i = 100000#32 :=
    broadcastInDim_apply _ bc_scalar_edges _ i (fun a => a.elim0) (fun a => a.elim0)
  show Scalar.select (IntOp.cmpi .slt (a i) (broadcastInDim SE ![] bc_scalar_edges (constantI S0 32 0#32) i))
    (IntOp.addi (a i) (broadcastInDim SE ![] bc_scalar_edges (constantI S0 32 100000#32) i)) (a i) = _
  rw [h0, h1]

/-- An entry that is not negative is left alone. -/
theorem normIdx_of_nonneg (a : IVec SE 32) (i : SE.Idx) (h : 0 ≤ (a i).toInt) : normIdx a i = a i := by
  rw [normIdx_apply]
  have hc : IntOp.cmpi .slt (a i) 0#32 = 0#1 := by
    show BitVec.ofBool ((a i).slt 0#32) = 0#1
    have : (a i).slt 0#32 = false := by
      rw [BitVec.slt, decide_eq_false_iff_not]
      show ¬ (a i).toInt < (0#32).toInt
      have h00 : (0#32 : BitVec 32).toInt = 0 := by decide
      rw [h00]; omega
    rw [this]; rfl
  rw [hc, select_zero]

/-- The gated reciprocal root of any vector of degrees, read at an index. -/
theorem gate_apply (d : FVec Ideal SN .f32) (i : SN.Idx) :
    (select (cmpf .ogt d (broadcastInDim SN ![] bc_scalar_nodes (constant S0 .f32 0x00000000#32)))
      (Host.rsqrt d) (broadcastInDim SN ![] bc_scalar_nodes (id (constant S0 .f32 0x00000000#32))) : FVec Ideal SN .f32) i
      = Scalar.select (Ideal.cmp .ogt (d i) 0) (Ideal.rsqrt (d i)) (0 : EReal) := by
  have h0 : broadcastInDim SN ![] bc_scalar_nodes (constant (F := Ideal) S0 .f32 0x00000000#32) i = (0 : EReal) :=
    (broadcastInDim_apply _ bc_scalar_nodes _ i (fun a => a.elim0) (fun a => a.elim0)).trans Ideal.ofBits_zero_f32
  have h1 : broadcastInDim SN ![] bc_scalar_nodes (id (constant (F := Ideal) S0 .f32 0x00000000#32)) i = (0 : EReal) :=
    (broadcastInDim_apply _ bc_scalar_nodes _ i (fun a => a.elim0) (fun a => a.elim0)).trans Ideal.ofBits_zero_f32
  rw [select_apply, cmpf_apply, h0, h1]
  rfl

theorem dinvVec_apply (x1 : IVec SI 32) (i : SN.Idx) :
    dinvVec x1 i = Scalar.select (Ideal.cmp .ogt (degree x1 i) 0) (Ideal.rsqrt (degree x1 i)) (0 : EReal) :=
  gate_apply (degree x1) i

/-- Whatever the degree is — a real, +∞ or −∞ — the gated reciprocal root is a real number. -/
theorem gate_real (d : EReal) :
    ∃ r : ℝ, Scalar.select (Ideal.cmp .ogt d 0) (Ideal.rsqrt d) (0 : EReal) = ((r : ℝ) : EReal) := by
  induction d using EReal.rec with
  | bot =>
    refine ⟨0, ?_⟩
    have hc : Ideal.cmp .ogt (⊥ : EReal) 0 = 0#1 := by
      show BitVec.ofBool (decide ((0 : EReal) < ⊥)) = 0#1
      rw [decide_eq_false (not_lt_bot)]; rfl
    rw [hc, select_zero]; rfl
  | top =>
    refine ⟨0, ?_⟩
    have hc : Ideal.cmp .ogt (⊤ : EReal) 0 = 1#1 := by
      show BitVec.ofBool (decide ((0 : EReal) < ⊤)) = 1#1
      rw [decide_eq_true (EReal.zero_lt_top)]; rfl
    rw [hc, select_one, Ideal.rsqrt_top]; rfl
  | coe r =>
    by_cases hr : 0 < r
    · refine ⟨(Real.sqrt r)⁻¹, ?_⟩
      have hc : Ideal.cmp .ogt ((r : ℝ) : EReal) 0 = 1#1 := by
        show BitVec.ofBool (decide ((0 : EReal) < ((r : ℝ) : EReal))) = 1#1
        rw [decide_eq_true (by exact_mod_cast hr)]; rfl
      rw [hc, select_one, Ideal.rsqrt_coe, if_neg (not_lt.mpr hr.le), if_neg hr.ne']
    · refine ⟨0, ?_⟩
      have hc : Ideal.cmp .ogt ((r : ℝ) : EReal) 0 = 0#1 := by
        show BitVec.ofBool (decide ((0 : EReal) < ((r : ℝ) : EReal))) = 0#1
        rw [decide_eq_false (by exact_mod_cast hr)]; rfl
      rw [hc, select_zero]; rfl

/-! ## The graph -/

theorem nodes_pos : 0 < 100000 := by decide

/-- The node whose row a gather reads for edge e's source. -/
def srcNode (x1 : IVec SI 32) (e : Fin 1700000) : Fin 100000 := rowOf 100000 nodes_pos (normIdx (srcRaw x1) (ix1 e))
/-- The node whose weight edge e's own normalisation reads for its destination. -/
def dstNode (x1 : IVec SI 32) (e : Fin 1700000) : Fin 100000 := rowOf 100000 nodes_pos (normIdx (dstRaw x1) (ix1 e))
/-- Edge e's row is added into node v: its raw destination, read signed, is v. -/
def landsOn (x1 : IVec SI 32) (e : Fin 1700000) (v : Fin 100000) : Prop := (dstRaw x1 (ix1 e)).toInt = (v.val : Int)
instance (x1 : IVec SI 32) (e : Fin 1700000) (v : Fin 100000) : Decidable (landsOn x1 e v) := by
  unfold landsOn; infer_instance
/-- A node's weight. -/
def nodeWeight (x1 : IVec SI 32) (u : Fin 100000) : EReal := dinvVec x1 (ix1 u)

/-- AN EDGE THAT LANDS ON v HAS DESTINATION NODE v. -/
theorem dst_of_lands (x1 : IVec SI 32) (e : Fin 1700000) (v : Fin 100000) (h : landsOn x1 e v) : dstNode x1 e = v := by
  unfold dstNode
  unfold landsOn at h
  rw [normIdx_of_nonneg _ _ (by rw [h]; omega)]
  exact rowOf_eq_of_toInt nodes_pos _ v h

/-- EVERY WEIGHT IS REAL. -/
theorem nodeWeight_real (x1 : IVec SI 32) : ∃ D : Fin 100000 → ℝ, ∀ u, nodeWeight x1 u = ((D u : ℝ) : EReal) := by
  have h : ∀ u : Fin 100000, ∃ r : ℝ, nodeWeight x1 u = ((r : ℝ) : EReal) := by
    intro u
    unfold nodeWeight
    rw [dinvVec_apply]
    exact gate_real _
  choose D hD using h
  exact ⟨D, hD⟩

end Cert.GraphArrays

end
-- ==== Proof.GraphLaw.lean ====
/-
  The mathematics of a two-layer graph convolution with symmetric normalisation, on the extended reals.

  A graph has n nodes and E directed edges. Edge e reads node `src e`, and `lands e v` says that its message is
  added into node v (an edge whose destination is not a node lands nowhere). Each node u carries a weight
  `dinv u`, and `dst e` is the node whose weight the edge's own normalisation reads; the one thing known
  about it is that an edge landing on v has `dst e = v`.

  One layer takes node features f and returns, at node v,

      normalised:   Σ_{e lands on v} (dinv (src e) · dinv (dst e)) · f (src e)                   (`aggN`)
      pre-scaled:   dinv v · Σ_{e lands on v} (dinv (src e) · f (src e))                          (`dinv v · agg …`)

  The two agree when the weights and the features are REAL numbers: on every landing edge dinv (dst e) is
  dinv v, a common real factor of every term, and a real factor moves across a finite sum of reals
  (`scale_agg`). On the extended reals in general it does not (∞ − ∞), which is why finiteness is carried:
  `aggN_coe` and `dot_coe` say that a normalised layer and a row-by-matrix product of real data are real.

  The network: features x (n × K) go through W1 (K × C), a layer, a bias b1 and max(·, 0); the result through
  W2 (C × C2), a layer and a bias b2. `netScaled` writes it with pre-scaled layers (each product already
  multiplied by the node's weight), `netNormalised` with normalised layers; `net_eq` says they are equal
  whenever dinv, x, W1, b1 and W2 are real (b2 may be any extended real: it is added last on both sides).
-/
import Mathlib.Data.EReal.Operations
import Mathlib.Algebra.BigOperators.Ring.Finset
import Mathlib.Tactic.Ring

noncomputable section

namespace Cert.GraphLaw

open scoped BigOperators

variable {n E K C C2 : ℕ}

/-- A finite sum of reals, summed in the extended reals, is the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

section Layer

variable (dinv : Fin n → EReal) (src dst : Fin E → Fin n) (lands : Fin E → Fin n → Prop)
  [∀ e v, Decidable (lands e v)]

/-- The plain sum, into node v, of the features of the source nodes of the edges landing on v (from 0). -/
def agg (f : Fin n → EReal) (v : Fin n) : EReal :=
  0 + ∑ e : Fin E, if lands e v then f (src e) else 0

/-- The normalised sum: each landing edge's term carries the weights of both of its ends. -/
def aggN (f : Fin n → EReal) (v : Fin n) : EReal :=
  0 + ∑ e : Fin E, if lands e v then (dinv (src e) * dinv (dst e)) * f (src e) else 0

variable {dinv src dst lands}

/-- A normalised layer of real weights and real features is the real sum of the real terms. -/
theorem aggN_coe (D : Fin n → ℝ) (hD : ∀ u, dinv u = ((D u : ℝ) : EReal)) (F : Fin n → ℝ) (v : Fin n) :
    aggN dinv src dst lands (fun u => ((F u : ℝ) : EReal)) v
      = ((∑ e : Fin E, if lands e v then (D (src e) * D (dst e)) * F (src e) else 0 : ℝ) : EReal) := by
  unfold aggN
  rw [zero_add, ← coe_sum]
  refine Finset.sum_congr rfl fun e _ => ?_
  by_cases h : lands e v
  · rw [if_pos h, if_pos h, hD, hD, EReal.coe_mul, EReal.coe_mul]
  · rw [if_neg h, if_neg h, EReal.coe_zero]

/-- THE LAW: with real weights and real features, a node's weight times the plain sum of pre-scaled
    features is the normalised sum — every landing edge's `dst` is the node itself. -/
theorem scale_agg (hdst : ∀ e v, lands e v → dst e = v)
    (D : Fin n → ℝ) (hD : ∀ u, dinv u = ((D u : ℝ) : EReal)) (F : Fin n → ℝ) (v : Fin n) :
    dinv v * agg src lands (fun u => dinv u * ((F u : ℝ) : EReal)) v
      = aggN dinv src dst lands (fun u => ((F u : ℝ) : EReal)) v := by
  rw [aggN_coe D hD F v]
  unfold agg
  have h1 : ∀ e : Fin E, (if lands e v then dinv (src e) * ((F (src e) : ℝ) : EReal) else 0)
      = (((if lands e v then D (src e) * F (src e) else 0 : ℝ)) : EReal) := by
    intro e
    by_cases h : lands e v
    · rw [if_pos h, if_pos h, hD, EReal.coe_mul]
    · rw [if_neg h, if_neg h, EReal.coe_zero]
  simp only [h1]
  rw [zero_add, coe_sum, hD, ← EReal.coe_mul, EReal.coe_eq_coe_iff, Finset.mul_sum]
  refine Finset.sum_congr rfl fun e _ => ?_
  by_cases h : lands e v
  · rw [if_pos h, if_pos h, hdst e v h]; ring
  · rw [if_neg h, if_neg h, mul_zero]

end Layer

/-- A row of reals against a column of reals, summed in the extended reals, is the real dot product. -/
theorem dot_coe {K : ℕ} (a b : Fin K → ℝ) :
    (∑ k : Fin K, ((a k : ℝ) : EReal) * ((b k : ℝ) : EReal)) = ((∑ k : Fin K, a k * b k : ℝ) : EReal) := by
  rw [← coe_sum]
  exact Finset.sum_congr rfl fun k _ => (EReal.coe_mul _ _).symm

section Network

variable (dinv : Fin n → EReal) (src dst : Fin E → Fin n) (lands : Fin E → Fin n → Prop)
  [∀ e v, Decidable (lands e v)]
  (x : Fin n → Fin K → EReal) (W1 : Fin K → Fin C → EReal) (b1 : Fin C → EReal)
  (W2 : Fin C → Fin C2 → EReal) (b2 : Fin C2 → EReal)

/-- First product, already multiplied by the node's weight. -/
def scaled1 (u : Fin n) (k : Fin C) : EReal := dinv u * ∑ j : Fin K, x u j * W1 j k
/-- Hidden features with pre-scaled layers: weight · plain sum + bias, cut below at 0. -/
def hiddenScaled (v : Fin n) (k : Fin C) : EReal :=
  max (dinv v * agg src lands (fun u => scaled1 dinv x W1 u k) v + b1 k) 0
/-- Second product, already multiplied by the node's weight. -/
def scaled2 (u : Fin n) (q : Fin C2) : EReal :=
  dinv u * ∑ k : Fin C, hiddenScaled dinv src lands x W1 b1 u k * W2 k q
/-- The network with pre-scaled layers. -/
def netScaled (v : Fin n) (q : Fin C2) : EReal :=
  dinv v * agg src lands (fun u => scaled2 dinv src lands x W1 b1 W2 u q) v + b2 q

/-- First product. -/
def prod1 (u : Fin n) (k : Fin C) : EReal := ∑ j : Fin K, x u j * W1 j k
/-- Hidden features with normalised layers. -/
def hiddenNormalised (v : Fin n) (k : Fin C) : EReal :=
  max (aggN dinv src dst lands (fun u => prod1 x W1 u k) v + b1 k) 0
/-- Second product. -/
def prod2 (u : Fin n) (q : Fin C2) : EReal :=
  ∑ k : Fin C, hiddenNormalised dinv src dst lands x W1 b1 u k * W2 k q
/-- The network with normalised layers. -/
def netNormalised (v : Fin n) (q : Fin C2) : EReal :=
  aggN dinv src dst lands (fun u => prod2 dinv src dst lands x W1 b1 W2 u q) v + b2 q

variable {dinv src dst lands x W1 b1 W2}

/-- THE TWO NETWORKS AGREE on real weights, features, matrices and first bias. -/
theorem net_eq (hdst : ∀ e v, lands e v → dst e = v)
    (D : Fin n → ℝ) (hD : ∀ u, dinv u = ((D u : ℝ) : EReal))
    (X : Fin n → Fin K → ℝ) (hX : ∀ u j, x u j = ((X u j : ℝ) : EReal))
    (A1 : Fin K → Fin C → ℝ) (hW1 : ∀ j k, W1 j k = ((A1 j k : ℝ) : EReal))
    (B1 : Fin C → ℝ) (hb1 : ∀ k, b1 k = ((B1 k : ℝ) : EReal))
    (A2 : Fin C → Fin C2 → ℝ) (hW2 : ∀ k q, W2 k q = ((A2 k q : ℝ) : EReal))
    (v : Fin n) (q : Fin C2) :
    netScaled dinv src lands x W1 b1 W2 b2 v q = netNormalised dinv src dst lands x W1 b1 W2 b2 v q := by
  -- the first product is real
  have hp1 : ∀ u k, prod1 x W1 u k = (((∑ j : Fin K, X u j * A1 j k : ℝ)) : EReal) := by
    intro u k; unfold prod1; simp only [hX, hW1]; exact dot_coe _ _
  -- so the two hidden layers are one function
  have hhid : ∀ u k, hiddenScaled dinv src lands x W1 b1 u k = hiddenNormalised dinv src dst lands x W1 b1 u k := by
    intro u k
    unfold hiddenScaled hiddenNormalised
    have e1 : (fun w => scaled1 dinv x W1 w k) = fun w => dinv w * (((∑ j : Fin K, X w j * A1 j k : ℝ)) : EReal) := by
      funext w; unfold scaled1; rw [← hp1 w k]; rfl
    have e2 : (fun w => prod1 x W1 w k) = fun w => (((∑ j : Fin K, X w j * A1 j k : ℝ)) : EReal) := by
      funext w; exact hp1 w k
    rw [e1, e2, scale_agg hdst D hD (fun w => ∑ j : Fin K, X w j * A1 j k) u]
  -- and real
  have hhidR : ∀ u k, ∃ r : ℝ, hiddenNormalised dinv src dst lands x W1 b1 u k = ((r : ℝ) : EReal) := by
    intro u k
    unfold hiddenNormalised
    have e2 : (fun w => prod1 x W1 w k) = fun w => (((∑ j : Fin K, X w j * A1 j k : ℝ)) : EReal) := by
      funext w; exact hp1 w k
    rw [e2, aggN_coe D hD (fun w => ∑ j : Fin K, X w j * A1 j k) u, hb1, ← EReal.coe_add, ← EReal.coe_zero,
      ← EReal.coe_strictMono.monotone.map_max]
    exact ⟨_, rfl⟩
  choose T hT using hhidR
  -- so the second product is real
  have hp2 : ∀ u, prod2 dinv src dst lands x W1 b1 W2 u q = (((∑ k : Fin C, T u k * A2 k q : ℝ)) : EReal) := by
    intro u; unfold prod2; simp only [hT, hW2]; exact dot_coe _ _
  unfold netScaled netNormalised
  have e1 : (fun w => scaled2 dinv src lands x W1 b1 W2 w q) = fun w => dinv w * (((∑ k : Fin C, T w k * A2 k q : ℝ)) : EReal) := by
    funext w; unfold scaled2; rw [← hp2 w]; unfold prod2; simp only [hhid]
  have e2 : (fun w => prod2 dinv src dst lands x W1 b1 W2 w q) = fun w => (((∑ k : Fin C, T w k * A2 k q : ℝ)) : EReal) := by
    funext w; exact hp2 w
  rw [e1, e2, scale_agg hdst D hD (fun w => ∑ k : Fin C, T w k * A2 k q) v]

end Network

end Cert.GraphLaw

end
-- ==== Proof.Network.lean ====
/-
  The two-layer network of this certificate, at its literal extents: 100,000 nodes, 1,700,000 edges (with the
  self-loops), 165 input features, 128 hidden features, 2 outputs.

  `scaledAt` is the network written with pre-scaled layers — each matrix product multiplied by the node's weight
  before the edges are summed, and the sum multiplied by the node's weight after — and `normalisedAt` the one
  written with normalised layers — each edge's term multiplied by the weights of both of its ends. Both are the
  functions of Proof/GraphLaw.lean at the graph of Proof/GraphArrays.lean and at the argument arrays read by
  coordinates. `scaled_eq_normalised`: they agree at every entry whenever x, W1, b1 and W2 hold real numbers
  (the weights are always real, and an edge that lands on a node has that node as its destination).
-/
import proofs.«135377_j6871947674334_2_alg».proof.Proof.GraphLaw
import proofs.«135377_j6871947674334_2_alg».proof.Proof.GraphArrays

noncomputable section

namespace Cert.Network

open Idealize.ShloMosaic Idealize.ShloMosaic.ValueIdx Cert.GraphArrays Cert.GraphLaw

abbrev SX : Shape := ⟨2, ![100000, 165]⟩
abbrev SW1 : Shape := ⟨2, ![165, 128]⟩
abbrev SB1 : Shape := ⟨1, ![128]⟩
abbrev SW2 : Shape := ⟨2, ![128, 2]⟩
abbrev SB2 : Shape := ⟨1, ![2]⟩

variable (x0 : FVec Ideal SX .f32) (x1 : IVec SI 32) (x2 : FVec Ideal SW1 .f32) (x3 : FVec Ideal SB1 .f32)
  (x4 : FVec Ideal SW2 .f32) (x5 : FVec Ideal SB2 .f32)

/-- The network with pre-scaled layers, at node v and output q. -/
def scaledAt (v : Fin 100000) (q : Fin 2) : EReal :=
  netScaled (nodeWeight x1) (srcNode x1) (landsOn x1) (fun u j => x0 (ix2 u j)) (fun j k => x2 (ix2 j k))
    (fun k => x3 (ix1 k)) (fun k q => x4 (ix2 k q)) (fun q => x5 (ix1 q)) v q

/-- The network with normalised layers, at node v and output q. -/
def normalisedAt (v : Fin 100000) (q : Fin 2) : EReal :=
  netNormalised (nodeWeight x1) (srcNode x1) (dstNode x1) (landsOn x1) (fun u j => x0 (ix2 u j)) (fun j k => x2 (ix2 j k))
    (fun k => x3 (ix1 k)) (fun k q => x4 (ix2 k q)) (fun q => x5 (ix1 q)) v q

variable {x0 x2 x3 x4}

/-- The two networks agree on real features, matrices and first bias. -/
theorem scaled_eq_normalised
    (h0 : ∀ i, ∃ r : ℝ, x0 i = ((r : ℝ) : EReal)) (h2 : ∀ i, ∃ r : ℝ, x2 i = ((r : ℝ) : EReal))
    (h3 : ∀ i, ∃ r : ℝ, x3 i = ((r : ℝ) : EReal)) (h4 : ∀ i, ∃ r : ℝ, x4 i = ((r : ℝ) : EReal))
    (v : Fin 100000) (q : Fin 2) :
    scaledAt x0 x1 x2 x3 x4 x5 v q = normalisedAt x0 x1 x2 x3 x4 x5 v q := by
  obtain ⟨D, hD⟩ := nodeWeight_real x1
  choose X hX using h0
  choose A1 hA1 using h2
  choose B1 hB1 using h3
  choose A2 hA2 using h4
  exact net_eq _ (dst_of_lands x1) D hD (fun u j => X (ix2 u j)) (fun u j => hX _) (fun j k => A1 (ix2 j k)) (fun j k => hA1 _)
    (fun k => B1 (ix1 k)) (fun k => hB1 _) (fun k q => A2 (ix2 k q)) (fun k q => hA2 _) v q

end Cert.Network

end
-- ==== Proof.LibRowScatterAdd.lean ====
/-
  Adding rows into a table at run-time row numbers (a segment sum), read one entry at a time.

  The host's scatter with an addition body takes a table x of R rows and C columns, a column of N integer
  row numbers (an N × 1 array, read as SIGNED integers) and N update rows of C entries each. With the
  dimension numbers fixed below, update row e is added, entry by entry, into row idx(e, 0) of the table;
  an update whose row number is negative or at least R falls outside the table and is dropped. So entry
  (r, q) of the result is

      x (r, q) + Σ_{e < N, idx(e, 0) = r} upd (e, q).

  The file derives this from the general definition of the result index (start index plus window
  coordinate on each table axis) for ANY extents R, C, N and any width of the integer row numbers:

    * on the row axis the start is the row number and the window coordinate is 0;
    * on the column axis the start is 0 and the window coordinate is the update's column;
    * hence update entry (e, c) lands on table entry (i₀, i₁) exactly when idx(e, 0) = i₀ as integers
      and c = i₁ (the bounds 0 ≤ idx(e, 0) < R are then automatic, i₀ being a row of the table);
    * the sum over the update entries that land on (r, q) is a double sum over e and c in which the
      column condition c = q picks one term.

  Last, a sum over the first N₁ + N₂ naturals splits into the sum over the first N₁ and the sum over the
  next N₂, which is how a sum over all update rows is cut into two consecutive runs of rows.
-/
import Idealize.ShloMosaic.PureOps.Ideal
import Idealize.ShloMosaic.PureOps.Dims
import Idealize.ShloMosaic.Lib.ValueIdx

noncomputable section

namespace Cert.LibRowScatterAdd

open Idealize.ShloMosaic Idealize.ShloMosaic.ValueIdx
open scoped BigOperators

variable {R C N : Nat}

/-- The dimension numbers of a row scatter: table [R, C], row numbers [N, 1] with the index vector on
    axis 1, updates [N, C]; axis 1 of the updates is the window axis, axis 0 of the table is inserted
    (a window is one row wide on it) and is the axis the row number addresses. -/
abbrev segDims (wf : ScatterDims.WF (⟨2, ![R, C]⟩ : Shape) ⟨2, ![N, 1]⟩ ⟨2, ![N, C]⟩ [1] [0] [0] 1) :
    ScatterDims (⟨2, ![R, C]⟩ : Shape) ⟨2, ![N, 1]⟩ ⟨2, ![N, C]⟩ :=
  { updateWindowDims := [1], insertedWindowDims := [0], scatterDimsToOperandDims := [0], indexVectorDim := 1, wf := wf }

section Coordinates

variable (wf : ScatterDims.WF (⟨2, ![R, C]⟩ : Shape) ⟨2, ![N, 1]⟩ ⟨2, ![N, C]⟩ [1] [0] [0] 1)

/-- On the row axis the window of update entry j starts at the row number of j's update row, read signed. -/
theorem segDims_start_row {w : Nat} (idx : IVec (⟨2, ![N, 1]⟩ : Shape) w) (j : (⟨2, ![N, C]⟩ : Shape).Idx) :
    (segDims wf).start j idx 0 = (idx (ix2 (j 0) (0 : Fin 1))).toInt := by
  unfold ScatterDims.start
  rw [dif_pos (show (0 : Fin 2) ∈ (segDims wf).scatterDimsToOperandDims from List.mem_singleton.mpr rfl)]
  have hsi : (segDims wf).siIdx j ⟨List.idxOf (0 : Fin 2) (segDims wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis, which the row number does not address, the window starts at 0. -/
theorem segDims_start_col {w : Nat} (idx : IVec (⟨2, ![N, 1]⟩ : Shape) w) (j : (⟨2, ![N, C]⟩ : Shape).Idx) :
    (segDims wf).start j idx 1 = 0 := by
  unfold ScatterDims.start
  rw [dif_neg (show ¬ (1 : Fin 2) ∈ [(0 : Fin 2)] by decide)]

/-- On the row axis, an inserted axis, the window coordinate is 0. -/
theorem segDims_window_row (j : (⟨2, ![N, C]⟩ : Shape).Idx) : (segDims wf).window j 0 = 0 := by
  unfold ScatterDims.window
  have hm : ¬ (0 : Fin 2) ∈ (segDims wf).sKept := show ¬ (0 : Fin 2) ∈ [(1 : Fin 2)] by decide
  rw [dif_neg hm]

/-- On the column axis the window coordinate is the update entry's column. -/
theorem segDims_window_col (j : (⟨2, ![N, C]⟩ : Shape).Idx) : (segDims wf).window j 1 = (j 1).val := by
  unfold ScatterDims.window
  have hm : (1 : Fin 2) ∈ (segDims wf).sKept := show (1 : Fin 2) ∈ [(1 : Fin 2)] by decide
  rw [dif_pos hm]
  rfl

/-- WHERE AN UPDATE ENTRY LANDS: update entry j lands on table entry i exactly when the row number of j's
    update row, read signed, is i's row and j's column is i's column. -/
theorem segDims_resultIdx_eq_some_iff {w : Nat} (idx : IVec (⟨2, ![N, 1]⟩ : Shape) w)
    (j : (⟨2, ![N, C]⟩ : Shape).Idx) (i : (⟨2, ![R, C]⟩ : Shape).Idx) :
    (segDims wf).resultIdx? j idx = some i ↔
      (idx (ix2 (j 0) (0 : Fin 1))).toInt = ((i 0).val : Int) ∧ (j 1).val = (i 1).val := by
  have hs0 := segDims_start_row wf idx j
  have hs1 := segDims_start_col wf idx j
  have hw0 := segDims_window_row wf j
  have hw1 := segDims_window_col wf j
  have hi0 := idx2_lt0 i
  have hi1 := idx2_lt1 i
  unfold ScatterDims.resultIdx?
  split
  · rename_i h
    rw [Option.some.injEq]
    have h0 := h 0
    have h1 := h 1
    constructor
    · intro e
      have e0 : ((segDims wf).start j idx 0 + (segDims wf).window j 0).toNat = (i 0).val :=
        congrArg (fun f : (⟨2, ![R, C]⟩ : Shape).Idx => (f 0).val) e
      have e1 : ((segDims wf).start j idx 1 + (segDims wf).window j 1).toNat = (i 1).val :=
        congrArg (fun f : (⟨2, ![R, C]⟩ : Shape).Idx => (f 1).val) e
      rw [hs0, hw0] at e0 h0
      rw [hs1, hw1] at e1 h1
      constructor <;> omega
    · rintro ⟨e0, e1⟩
      funext a; refine Fin.ext ?_
      match a with
      | ⟨0, _⟩ =>
        show ((segDims wf).start j idx 0 + (segDims wf).window j 0).toNat = (i 0).val
        rw [hs0, hw0, e0]; omega
      | ⟨1, _⟩ =>
        show ((segDims wf).start j idx 1 + (segDims wf).window j 1).toNat = (i 1).val
        rw [hs1, hw1]; omega
  · rename_i h
    constructor
    · intro e; exact absurd e (by simp)
    · rintro ⟨e0, e1⟩
      refine absurd (fun a => ?_) h
      match a with
      | ⟨0, _⟩ =>
        show 0 ≤ (segDims wf).start j idx 0 + (segDims wf).window j 0 ∧
          (segDims wf).start j idx 0 + (segDims wf).window j 0 < ((R : Nat) : Int)
        rw [hs0, hw0, e0]; omega
      | ⟨1, _⟩ =>
        show 0 ≤ (segDims wf).start j idx 1 + (segDims wf).window j 1 ∧
          (segDims wf).start j idx 1 + (segDims wf).window j 1 < ((C : Nat) : Int)
        rw [hs1, hw1]; omega

/-- THE ROW SCATTER-ADD READ AT ONE ENTRY: entry (r, q) of the result is the table's entry plus the sum,
    over the update rows whose row number read signed is r, of their entry in column q. -/
theorem segSum_apply {w : Nat} (x : (⟨2, ![R, C]⟩ : Shape).Idx → EReal) (idx : IVec (⟨2, ![N, 1]⟩ : Shape) w)
    (upd : (⟨2, ![N, C]⟩ : Shape).Idx → EReal) (r : Fin R) (q : Fin C) :
    Ideal.hostScatterAdd (segDims wf) x idx upd (ix2 r q)
      = x (ix2 r q) + ∑ e : Fin N, if (idx (ix2 e (0 : Fin 1))).toInt = (r.val : Int) then upd (ix2 e q) else 0 := by
  unfold Ideal.hostScatterAdd
  congr 1
  rw [Finset.sum_filter, sum_idx2]
  refine Finset.sum_congr rfl fun e _ => ?_
  have hc : ∀ c : Fin C, ((segDims wf).resultIdx? (ix2 e c) idx = some (ix2 r q)) ↔
      ((idx (ix2 e (0 : Fin 1))).toInt = (r.val : Int) ∧ c = q) := by
    intro c
    rw [segDims_resultIdx_eq_some_iff, Fin.ext_iff]
    exact Iff.rfl
  simp only [hc, ite_and]
  by_cases ht : (idx (ix2 e (0 : Fin 1))).toInt = (r.val : Int)
  · simp only [if_pos ht, Finset.sum_ite_eq', Finset.mem_univ, ↓reduceIte]
  · simp only [if_neg ht, Finset.sum_const_zero]

end Coordinates

/-- A sum over the first N₁ + N₂ naturals is the sum over the first N₁ plus the sum over the next N₂. -/
theorem sum_fin_split {M : Type*} [AddCommMonoid M] {N₁ N₂ N : Nat} (hN : N = N₁ + N₂) (f : Fin N → M) :
    ∑ e : Fin N, f e = (∑ e : Fin N₁, f ⟨e.val, by omega⟩) + ∑ e : Fin N₂, f ⟨N₁ + e.val, by omega⟩ := by
  subst hN
  rw [Fin.sum_univ_add]
  rfl

end Cert.LibRowScatterAdd

end
-- ==== Proof.LibColumns.lean ====
/-
  Columns of a matrix, and a matrix assembled from columns, read at an index — for any extents and any element type.

  A column taken out of an `[a, n]` matrix as a one-column slice and flattened to a vector reads, at `i`, the matrix
  at `(i, column)`. A vector made a one-column matrix again (by a broadcast along a new trailing unit axis) reads the
  vector at the row. Twelve one-column matrices laid side by side read, at `(r, k)`, the `k`-th of them at row `r`.
  And a vector of per-column values laid as one row by a broadcast (`[b] → [1, b]`) and repeated down the rows by another
  (`[1, b] → [a, b]`) reads, at `(p, c)`, the vector at `c`.
-/
import Idealize.ShloMosaic.Lib.ValueLayout
import Idealize.ShloMosaic.Lib.Pipeline.Value

noncomputable section

namespace Cert.LibColumns

open Idealize.ShloMosaic Idealize.ShloMosaic.ValueIdx

variable {α : Type}

/-! ## One column in, one column out -/

/-- An `[a, 1]` array cast to `[a]` reads, at `i`, the operand's one column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of an `[a, n]` matrix — the one-column slice at offset `o = k`, cast to a vector — reads, at `i`,
    the matrix at `(i, k)`. -/
theorem column_apply {a n : ℕ} (o : ℕ) (x : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (i : Fin a) (k : Fin n) (hk : k.val = o) :
    shapeCast ⟨1, ![a]⟩ (extractStridedSlice ⟨2, ![a, 1]⟩ ![0, o] x hs) hc (ix1 i) = x (ix2 i k) :=
  (shapeCast_a1_a_apply _ hc i).trans (slice2_axis1_apply o x hs i (0 : Fin 1) k (by show k.val = o + 0; omega))

/-- A vector `[a]` broadcast along a new trailing unit axis (`dims = [0]`) reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A row of per-column values over a matrix, the host's way -/

/-- A vector `[b]` laid as one row by a broadcast (`dims = [1]`) reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` repeated down `a` rows by a broadcast (`dims = [0, 1]`) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- Per-column values `x : [b]` laid as a row and repeated down the rows, both by broadcasts: `x c` everywhere in column `c`. -/
theorem perColumnHost_apply {a b : ℕ} (x : (⟨1, ![b]⟩ : Shape).Idx → α)
    (h₁ : (⟨1, ![b]⟩ : Shape).BroadcastsInDim ⟨2, ![1, b]⟩ (![1] : Fin 1 → Fin (⟨2, ![1, b]⟩ : Shape).rank))
    (h₂ : (⟨2, ![1, b]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h₂ (broadcastInDim ⟨2, ![1, b]⟩ ![1] h₁ x) (ix2 p c) = x (ix1 c) :=
  (broadcastInDim_1b_ab_apply _ h₂ p c).trans (broadcastInDim_b_1b_apply x h₁ 0 c)

/-! ## Twelve columns side by side -/

/-- Twelve one-column matrices concatenated along the column axis read, at `(r, k)`, the `k`-th of them at row `r`. -/
theorem stack12_apply {a : ℕ} (p0 p1 p2 p3 p4 p5 p6 p7 p8 p9 p10 p11 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩, ⟨2, ![a, 1]⟩, ⟨2, ![a, 1]⟩] ⟨2, ![a, 12]⟩ 1)
    (r : Fin a) (k : Fin 12) :
    concatenate ⟨2, ![a, 12]⟩ 1 [⟨⟨2, ![a, 1]⟩, p0⟩, ⟨⟨2, ![a, 1]⟩, p1⟩, ⟨⟨2, ![a, 1]⟩, p2⟩, ⟨⟨2, ![a, 1]⟩, p3⟩,
        ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩,
        ⟨⟨2, ![a, 1]⟩, p9⟩, ⟨⟨2, ![a, 1]⟩, p10⟩, ⟨⟨2, ![a, 1]⟩, p11⟩] h (ix2 r k)
      = (![p0, p1, p2, p3, p4, p5, p6, p7, p8, p9, p10, p11] : Fin 12 → (⟨2, ![a, 1]⟩ : Shape).Idx → α) k (ix2 r (0 : Fin 1)) := by
  refine concatenate_ofFn_unit_apply (t := ⟨2, ![a, 12]⟩) (s₁ := ⟨2, ![a, 1]⟩) (1 : Fin 2) (N := 12)
    (![p0, p1, p2, p3, p4, p5, p6, p7, p8, p9, p10, p11] : Fin 12 → (⟨2, ![a, 1]⟩ : Shape).Idx → α) h rfl rfl (ix2 r k) k rfl
    (ix2 r (0 : Fin 1)) fun b hb => ?_
  match b with
  | ⟨0, _⟩ => rfl
  | ⟨1, _⟩ => exact absurd rfl hb

/-- Twelve values listed, a function applied to the `k`-th of them: it is the `k`-th of the twelve results. -/
theorem vec12_map {β γ : Type} (g : β → γ) (a0 a1 a2 a3 a4 a5 a6 a7 a8 a9 a10 a11 : β)
    (m0 m1 m2 m3 m4 m5 m6 m7 m8 m9 m10 m11 : γ)
    (h0 : g a0 = m0) (h1 : g a1 = m1) (h2 : g a2 = m2) (h3 : g a3 = m3) (h4 : g a4 = m4) (h5 : g a5 = m5)
    (h6 : g a6 = m6) (h7 : g a7 = m7) (h8 : g a8 = m8) (h9 : g a9 = m9) (h10 : g a10 = m10) (h11 : g a11 = m11)
    (k : Fin 12) :
    g ((![a0, a1, a2, a3, a4, a5, a6, a7, a8, a9, a10, a11] : Fin 12 → β) k)
      = (![m0, m1, m2, m3, m4, m5, m6, m7, m8, m9, m10, m11] : Fin 12 → γ) k := by
  subst h0 h1 h2 h3 h4 h5 h6 h7 h8 h9 h10 h11
  fin_cases k <;> rfl

end Cert.LibColumns

end
-- ==== Proof.LibSegmentGather.lean ====
/-
  A segment sum and a row lookup driven by a VECTOR of row numbers (jax.ops.segment_sum(u, d) and x[s] along the
  first axis), read one entry at a time.

  Both lower to a scatter / a gather whose row numbers are the vector laid out as a one-column array. With
  N row numbers, R table rows and C columns, for any extents and any width of the integers:

    * `segmentSum_apply`: the scatter-add of N update rows into a table of zeros, at (r, q), is
          0 + Σ_{e < N, d(e) = r as signed integers} u (e, q)
      — an update whose row number is not a row of the table is dropped;
    * `lookupRows_apply`: the gather of rows of an R × C table, at (e, q), is x (rowOf (s e), q), where the row
      number is read signed and clamped into the table;
    * `lookupEntries_apply`: the same for a table of R single entries.
-/
import Idealize.ShloMosaic.PureOps.Ideal
import Idealize.ShloMosaic.PureOps.Ideal.Laws
import Idealize.ShloMosaic.PureOps.Dims
import Idealize.ShloMosaic.Lib.ValueIdx
import proofs.«135377_j6871947674334_2_alg».proof.Proof.LibRowScatterAdd
import proofs.«135377_j6871947674334_2_alg».proof.Proof.LibRowGather
import proofs.«135377_j6871947674334_2_alg».proof.Proof.LibColumns

noncomputable section

namespace Cert.LibSegmentGather

open Idealize.ShloMosaic Idealize.ShloMosaic.ValueIdx
open Cert.LibRowScatterAdd Cert.LibRowGather
open scoped BigOperators

variable {α : Type} {R C N w : ℕ}

/-- On the extended reals the host's scatter-add is the exact sum of the updates that land on each entry. -/
theorem scatterAdd_exact {s si u : Shape} (dims : ScatterDims s si u) (x : FVec Ideal s .f32) (idx : IVec si w)
    (upd : FVec Ideal u .f32) : Host.scatterAdd dims x idx upd = Ideal.hostScatterAdd dims x idx upd := by
  unfold Host.scatterAdd
  rfl

/-- A segment sum into zeros, at (r, q): the sum of the update rows whose row number, read signed, is r. -/
theorem segmentSum_apply
    (wf : ScatterDims.WF (⟨2, ![R, C]⟩ : Shape) ⟨2, ![N, 1]⟩ ⟨2, ![N, C]⟩ [1] [0] [0] 1)
    (hb : (⟨1, ![N]⟩ : Shape).BroadcastsInDim ⟨2, ![N, 1]⟩ (![0] : Fin 1 → Fin (⟨2, ![N, 1]⟩ : Shape).rank))
    (zero : FVec Ideal ⟨2, ![R, C]⟩ .f32) (hz : ∀ i, zero i = 0)
    (d : IVec ⟨1, ![N]⟩ w) (u : FVec Ideal ⟨2, ![N, C]⟩ .f32) (r : Fin R) (q : Fin C) :
    Host.scatterAdd (segDims wf) zero (broadcastInDim ⟨2, ![N, 1]⟩ ![0] hb d) u (ix2 r q)
      = 0 + ∑ e : Fin N, if (d (ix1 e)).toInt = (r.val : Int) then u (ix2 e q) else 0 := by
  rw [scatterAdd_exact, segSum_apply wf zero (broadcastInDim ⟨2, ![N, 1]⟩ ![0] hb d) u r q, hz]
  refine congrArg _ (Finset.sum_congr rfl fun e _ => ?_)
  rw [Cert.LibColumns.broadcastInDim_a_a1_apply]

/-- A lookup of rows, at (e, q): the table's entry in column q of the row that row number e addresses. -/
theorem lookupRows_apply (hR : 0 < R)
    (wf : GatherDims.WF (⟨2, ![R, C]⟩ : Shape) ⟨2, ![N, 1]⟩ ⟨2, ![N, C]⟩ [1] [0] [] [0] [] 1 ![1, C])
    (hb : (⟨1, ![N]⟩ : Shape).BroadcastsInDim ⟨2, ![N, 1]⟩ (![0] : Fin 1 → Fin (⟨2, ![N, 1]⟩ : Shape).rank))
    (x : (⟨2, ![R, C]⟩ : Shape).Idx → α) (s : IVec ⟨1, ![N]⟩ w) (e : Fin N) (q : Fin C) :
    Host.gather (rowDims wf) x (broadcastInDim ⟨2, ![N, 1]⟩ ![0] hb s) (ix2 e q)
      = x (ix2 (rowOf R hR (s (ix1 e))) q) := by
  rw [rowGather_apply hR wf, Cert.LibColumns.broadcastInDim_a_a1_apply]

/-- A lookup of single entries, at e. -/
theorem lookupEntries_apply (hR : 0 < R)
    (wf : GatherDims.WF (⟨1, ![R]⟩ : Shape) ⟨2, ![N, 1]⟩ ⟨1, ![N]⟩ [] [0] [] [0] [] 1 ![1])
    (hb : (⟨1, ![N]⟩ : Shape).BroadcastsInDim ⟨2, ![N, 1]⟩ (![0] : Fin 1 → Fin (⟨2, ![N, 1]⟩ : Shape).rank))
    (x : (⟨1, ![R]⟩ : Shape).Idx → α) (s : IVec ⟨1, ![N]⟩ w) (e : Fin N) :
    Host.gather (entryDims wf) x (broadcastInDim ⟨2, ![N, 1]⟩ ![0] hb s) (ix1 e)
      = x (ix1 (rowOf R hR (s (ix1 e)))) := by
  rw [entryGather_apply hR wf, Cert.LibColumns.broadcastInDim_a_a1_apply]

/-- THE TWO COMPOSED — segment_sum (x[s], d) into zeros, at (r, q): the sum, over the positions e whose
    destination number is r, of the table's entry in column q of the row that source number e addresses. -/
theorem segmentOfLookup_apply (hR : 0 < R)
    (wfS : ScatterDims.WF (⟨2, ![R, C]⟩ : Shape) ⟨2, ![N, 1]⟩ ⟨2, ![N, C]⟩ [1] [0] [0] 1)
    (wfG : GatherDims.WF (⟨2, ![R, C]⟩ : Shape) ⟨2, ![N, 1]⟩ ⟨2, ![N, C]⟩ [1] [0] [] [0] [] 1 ![1, C])
    (hb : (⟨1, ![N]⟩ : Shape).BroadcastsInDim ⟨2, ![N, 1]⟩ (![0] : Fin 1 → Fin (⟨2, ![N, 1]⟩ : Shape).rank))
    (zero : FVec Ideal ⟨2, ![R, C]⟩ .f32) (hz : ∀ i, zero i = 0)
    (x : FVec Ideal ⟨2, ![R, C]⟩ .f32) (s d : IVec ⟨1, ![N]⟩ w) (r : Fin R) (q : Fin C) :
    Host.scatterAdd (segDims wfS) zero (broadcastInDim ⟨2, ![N, 1]⟩ ![0] hb d)
        (Host.gather (rowDims wfG) x (broadcastInDim ⟨2, ![N, 1]⟩ ![0] hb s)) (ix2 r q)
      = 0 + ∑ e : Fin N, if (d (ix1 e)).toInt = (r.val : Int) then x (ix2 (rowOf R hR (s (ix1 e))) q) else 0 := by
  rw [segmentSum_apply wfS hb zero hz]
  refine congrArg _ (Finset.sum_congr rfl fun e _ => ?_)
  rw [lookupRows_apply hR wfG hb]

/-- A column repeated along the rows by the host ([a, 1] → [a, b]), read at (p, c). -/
theorem repeatColumn_apply {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A NORMALISED SEGMENT SUM as jnp spells it — per position e a factor dv[s e] · dv[t e] (two entry lookups,
    multiplied, laid out as a column and repeated along the row), times the looked-up row x[s e], summed into the
    destination d e — at (r, q): the sum, over the positions whose destination number is r, of
    (dv (row s e) · dv (row t e)) · x (row s e, q). -/
theorem normalisedSegment_apply (hR : 0 < R)
    (wfS : ScatterDims.WF (⟨2, ![R, C]⟩ : Shape) ⟨2, ![N, 1]⟩ ⟨2, ![N, C]⟩ [1] [0] [0] 1)
    (wfG : GatherDims.WF (⟨2, ![R, C]⟩ : Shape) ⟨2, ![N, 1]⟩ ⟨2, ![N, C]⟩ [1] [0] [] [0] [] 1 ![1, C])
    (wfE : GatherDims.WF (⟨1, ![R]⟩ : Shape) ⟨2, ![N, 1]⟩ ⟨1, ![N]⟩ [] [0] [] [0] [] 1 ![1])
    (hb : (⟨1, ![N]⟩ : Shape).BroadcastsInDim ⟨2, ![N, 1]⟩ (![0] : Fin 1 → Fin (⟨2, ![N, 1]⟩ : Shape).rank))
    (hrep : (⟨2, ![N, 1]⟩ : Shape).BroadcastsInDim ⟨2, ![N, C]⟩ (![0, 1] : Fin 2 → Fin (⟨2, ![N, C]⟩ : Shape).rank))
    (zero : FVec Ideal ⟨2, ![R, C]⟩ .f32) (hz : ∀ i, zero i = 0)
    (dv : FVec Ideal ⟨1, ![R]⟩ .f32) (x : FVec Ideal ⟨2, ![R, C]⟩ .f32) (s t d : IVec ⟨1, ![N]⟩ w) (r : Fin R) (q : Fin C) :
    Host.scatterAdd (segDims wfS) zero (broadcastInDim ⟨2, ![N, 1]⟩ ![0] hb d)
        (mulf (F := Ideal) (φ := .f32)
          (broadcastInDim ⟨2, ![N, C]⟩ ![0, 1] hrep (broadcastInDim ⟨2, ![N, 1]⟩ ![0] hb
            (mulf (F := Ideal) (φ := .f32) (Host.gather (entryDims wfE) dv (broadcastInDim ⟨2, ![N, 1]⟩ ![0] hb s))
              (Host.gather (entryDims wfE) dv (broadcastInDim ⟨2, ![N, 1]⟩ ![0] hb t)))))
          (Host.gather (rowDims wfG) x (broadcastInDim ⟨2, ![N, 1]⟩ ![0] hb s))) (ix2 r q)
      = 0 + ∑ e : Fin N, if (d (ix1 e)).toInt = (r.val : Int)
          then (dv (ix1 (rowOf R hR (s (ix1 e)))) * dv (ix1 (rowOf R hR (t (ix1 e))))) * x (ix2 (rowOf R hR (s (ix1 e))) q) else 0 := by
  rw [segmentSum_apply wfS hb zero hz]
  refine congrArg _ (Finset.sum_congr rfl fun e _ => ?_)
  rw [mulf_apply, repeatColumn_apply, Cert.LibColumns.broadcastInDim_a_a1_apply, mulf_apply,
    lookupEntries_apply hR wfE hb, lookupEntries_apply hR wfE hb, lookupRows_apply hR wfG hb]

end Cert.LibSegmentGather

end
-- ==== Proof.KernelHost.lean ====
/-
  The idealized kernel's result as a function of its arguments: the pre-scaled network.

  The program alternates host stretches and launches; each boundary's contents are a fold from the launch memory.
  Walking the fold back, buffer by buffer:

    * before the first launch the host builds the edge arrays (`srcRaw`, `dstRaw`) and the weight column — the
      weights `dinvVec` laid out as a 100,000 × 1 array (`dinvCol`); the arguments are untouched;
    * the first launch leaves `hs1` = weight · (x · W1), row by row (Proof/KernelBlocks.lean);
    * the host sums, into each node, the rows of `hs1` at the sources of the edges landing on it (`agg1`: a lookup
      of rows at the normalised source numbers, then a segment sum at the raw destination numbers), and lays the
      first bias out as one row (`b1row`);
    * the second launch leaves `hs2` = weight · (max(weight · agg1 + b1, 0) · W2);
    * the host sums again (`agg2`), multiplies by the weight column and adds the second bias: `result`.

  Read at an entry (v, q), each of these is the corresponding function of Proof/GraphLaw.lean at the graph of
  Proof/GraphArrays.lean — `scaled1`, `agg`, `hiddenScaled`, `scaled2`, `netScaled` —, so the result buffer holds
  `Network.scaledAt` of the arguments (`result_apply`, `value`).
-/
import proofs.«135377_j6871947674334_2_alg».proof.Proof.KernelRun
import proofs.«135377_j6871947674334_2_alg».proof.Proof.KernelBlocks
import proofs.«135377_j6871947674334_2_alg».proof.Proof.GraphArrays
import proofs.«135377_j6871947674334_2_alg».proof.Proof.Network
import proofs.«135377_j6871947674334_2_alg».proof.Proof.LibSegmentGather
import proofs.«135377_j6871947674334_2_alg».proof.Proof.LibRowwise
import proofs.«135377_j6871947674334_2_alg».proof.Proof.LibColumns
import Idealize.ShloMosaic.Lib.StableHlo.Run
import Idealize.ShloMosaic.Lib.ValueLayout
import Idealize.ShloMosaic.Lib.Pipeline.Value

set_option maxRecDepth 16384

noncomputable section

namespace Cert.KernelIdeal.HostValue

open Cert.KernelIdeal Cert.KernelIdeal.Gen Cert.KernelIdeal.Blocks
open Idealize.ShloMosaic Idealize.ShloMosaic.TcCoe Idealize.ShloMosaic.ValueIdx Idealize.SL.Sem Idealize.ShloMosaic.StableHlo
open Cert.GraphArrays Cert.GraphLaw
open scoped BigOperators

/-! ## The host's arrays, as pure functions of the arguments -/

/-- The weights as a 100,000 × 1 column. -/
def dinvCol (x1 : IVec SI 32) : S100000x1.Idx → EReal := shapeCast S100000x1 (dinvVec x1) shapeCasts_S100000_S100000x1

/-- What the first launch leaves. -/
def hs1 (x0 : S100000x165.Idx → EReal) (x1 : IVec SI 32) (x2 : S165x128.Idx → EReal) : S100000x128.Idx → EReal :=
  prescaled x0 x2 (dinvCol x1)

/-- Rows looked up at the normalised sources, summed into the raw destinations: 128 columns. -/
def sumRows128 (h : S100000x128.Idx → EReal) (x1 : IVec SI 32) : S100000x128.Idx → EReal :=
  Host.scatterAdd scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 (dstRaw x1))
    (Host.gather gather_S100000x128_S1700000x1_S1700000x128_1_0_n_n_0_1_1128 h
      (broadcastInDim S1700000x1 ![0] bcast_S1700000_S1700000x1_0 (normIdx (srcRaw x1))))

/-- The same with 2 columns. -/
def sumRows2 (h : S100000x2.Idx → EReal) (x1 : IVec SI 32) : S100000x2.Idx → EReal :=
  Host.scatterAdd scatter_S100000x2_S1700000x1_S1700000x2_1_0_0_1
    (broadcastInDim S100000x2 ![] bcast_S_S100000x2 (constant (F := Ideal) S_ .f32 0x00000000#32))
    (broadcastInDim S1700000x1 ![0] bcast_S1700000_S1700000x1_0 (dstRaw x1))
    (Host.gather gather_S100000x2_S1700000x1_S1700000x2_1_0_n_n_0_1_12 h
      (broadcastInDim S1700000x1 ![0] bcast_S1700000_S1700000x1_0 (normIdx (srcRaw x1))))

def agg1 (x0 : S100000x165.Idx → EReal) (x1 : IVec SI 32) (x2 : S165x128.Idx → EReal) : S100000x128.Idx → EReal :=
  sumRows128 (hs1 x0 x1 x2) x1

/-- The first bias as one row. -/
def b1row (x3 : S128.Idx → EReal) : S1x128.Idx → EReal := shapeCast S1x128 x3 shapeCasts_S128_S1x128

/-- What the second launch leaves. -/
def hs2 (x0 : S100000x165.Idx → EReal) (x1 : IVec SI 32) (x2 : S165x128.Idx → EReal) (x3 : S128.Idx → EReal)
    (x4 : S128x2.Idx → EReal) : S100000x2.Idx → EReal :=
  boundary (agg1 x0 x1 x2) (dinvCol x1) (b1row x3) x4

def agg2 (x0 : S100000x165.Idx → EReal) (x1 : IVec SI 32) (x2 : S165x128.Idx → EReal) (x3 : S128.Idx → EReal)
    (x4 : S128x2.Idx → EReal) : S100000x2.Idx → EReal :=
  sumRows2 (hs2 x0 x1 x2 x3 x4) x1

/-- The program's result: weight column · agg2 + second bias. -/
def result (x0 : S100000x165.Idx → EReal) (x1 : IVec SI 32) (x2 : S165x128.Idx → EReal) (x3 : S128.Idx → EReal)
    (x4 : S128x2.Idx → EReal) (x5 : S2.Idx → EReal) : S100000x2.Idx → EReal :=
  addf (F := Ideal) (φ := .f32)
    (mulf (F := Ideal) (φ := .f32) (broadcastInDim S100000x2 ![0, 1] bcast_S100000x1_S100000x2_0_1 (dinvCol x1)) (agg2 x0 x1 x2 x3 x4))
    (broadcastInDim S100000x2 ![0, 1] bcast_S1x2_S100000x2_0_1 (broadcastInDim S1x2 ![1] bcast_S2_S1x2_1 x5))

/-! ## The fold, walked back -/

/-! The values of the weights' selection (rsqrt where the degree is positive, 0 elsewhere) pass through buffers addressed by their tensor type; the transport between a
    buffer's recorded type and the tensor type is the identity at each of them. -/

theorem gateOut_toBuf (p q r) (v : (⟨S100000, .f32⟩ : BufTy).Contents (Elt Ideal)) :
    (TRef.of (sig := sig) (T := ⟨S100000, .f32⟩) main_v14 p q r).toBuf v = v := rfl
theorem gateCond_ofBuf (p q r) (v : main_v12.ty.Contents (Elt Ideal)) :
    (TRef.of (sig := sig) (T := ⟨S100000, .i1⟩) main_v12 p q r).ofBuf v = v := rfl
theorem gateRoot_ofBuf (p q r) (v : main_v13.ty.Contents (Elt Ideal)) :
    (TRef.of (sig := sig) (T := ⟨S100000, .f32⟩) main_v13 p q r).ofBuf v = v := rfl
theorem gateZeros_ofBuf (p q r) (v : main_call0_v1.ty.Contents (Elt Ideal)) :
    (TRef.of (sig := sig) (T := ⟨S100000, .f32⟩) main_call0_v1 p q r).ofBuf v = v := rfl
theorem gateZeros_toBuf (p q r) (v : (⟨S100000, .f32⟩ : BufTy).Contents (Elt Ideal)) :
    (TRef.of (sig := sig) (T := ⟨S100000, .f32⟩) main_call0_v1 p q r).toBuf v = v := rfl
theorem gateZero_ofBuf (p q r) (v : main_call0_v0.ty.Contents (Elt Ideal)) :
    (TRef.of (sig := sig) (T := ⟨S_, .f32⟩) main_call0_v0 p q r).ofBuf v = v := rfl
theorem gateZero_toBuf (p q r) (v : (⟨S_, .f32⟩ : BufTy).Contents (Elt Ideal)) :
    (TRef.of (sig := sig) (T := ⟨S_, .f32⟩) main_call0_v0 p q r).toBuf v = v := rfl
theorem gateConst_ofBuf (p q r) (v : main_cst_2.ty.Contents (Elt Ideal)) :
    (TRef.of (sig := sig) (T := ⟨S_, .f32⟩) main_cst_2 p q r).ofBuf v = v := rfl

section Walk

variable (m : (ℓ : Loc nD τ sig) → Buf (Elt Ideal) ℓ) (ρ : Dev nD → PrngReg) (c : Dev nD)

/-! ### At the first launch's entry -/

theorem W3_v5 : W3 m ρ c (Proc.devRef .tc main_v5) = srcRaw (m ((c : Thread nD τ).loc main_arg1)) := by
  show after hostOps0_2 (after hostOps0_1 (after hostOps0 (W0 m ρ c))) (Proc.devRef .tc main_v5) = _
  after_results_simp
  rfl
theorem W3_v6 : W3 m ρ c (Proc.devRef .tc main_v6) = dstRaw (m ((c : Thread nD τ).loc main_arg1)) := by
  show after hostOps0_2 (after hostOps0_1 (after hostOps0 (W0 m ρ c))) (Proc.devRef .tc main_v6) = _
  after_results_simp
  rfl
/-- After the first stretch: the selection's condition, the reciprocal root and the zero it selects among. -/
theorem W1_v12 : W1 m ρ c (Proc.devRef .tc main_v12)
    = cmpf .ogt (degree (m ((c : Thread nD τ).loc main_arg1)))
        (broadcastInDim S100000 ![] bcast_S_S100000 (constant (F := Ideal) S_ .f32 0x00000000#32)) := by
  show after hostOps0 (W0 m ρ c) (Proc.devRef .tc main_v12) = _
  after_results
  rfl
theorem W1_v13 : W1 m ρ c (Proc.devRef .tc main_v13) = Host.rsqrt (degree (m ((c : Thread nD τ).loc main_arg1))) := by
  show after hostOps0 (W0 m ρ c) (Proc.devRef .tc main_v13) = _
  after_results
  rfl
theorem W1_cst2 : W1 m ρ c (Proc.devRef .tc main_cst_2) = constant (F := Ideal) S_ .f32 0x00000000#32 := by
  show after hostOps0 (W0 m ρ c) (Proc.devRef .tc main_cst_2) = _
  after_results
/-- After the selection: the weights. -/
theorem W2_v14 : W2 m ρ c (Proc.devRef .tc main_v14) = dinvVec (m ((c : Thread nD τ).loc main_arg1)) := by
  show after hostOps0_1 (W1 m ρ c) (Proc.devRef .tc main_v14) = _
  have h12 := W1_v12 m ρ c
  have h13 := W1_v13 m ρ c
  have hc := W1_cst2 m ρ c
  generalize W1 m ρ c = V1 at h12 h13 hc ⊢
  after_results
  rw [gateOut_toBuf, gateCond_ofBuf, gateRoot_ofBuf, gateZeros_ofBuf, gateZeros_toBuf, gateZero_ofBuf, gateZero_toBuf,
    gateConst_ofBuf, h12, h13, hc]
  rfl
theorem W3_v15 : W3 m ρ c (Proc.devRef .tc main_v15) = dinvCol (m ((c : Thread nD τ).loc main_arg1)) := by
  show after hostOps0_2 (W2 m ρ c) (Proc.devRef .tc main_v15) = _
  have h := W2_v14 m ρ c
  generalize W2 m ρ c = V2 at h ⊢
  after_results
  rw [h]
  rfl
theorem W3_arg0 : W3 m ρ c (Proc.devRef .tc main_arg0) = m ((c : Thread nD τ).loc main_arg0) := by
  show after hostOps0_2 (after hostOps0_1 (after hostOps0 (W0 m ρ c))) (Proc.devRef .tc main_arg0) = _
  after_results_simp
theorem W3_arg2 : W3 m ρ c (Proc.devRef .tc main_arg2) = m ((c : Thread nD τ).loc main_arg2) := by
  show after hostOps0_2 (after hostOps0_1 (after hostOps0 (W0 m ρ c))) (Proc.devRef .tc main_arg2) = _
  after_results_simp
theorem W3_arg3 : W3 m ρ c (Proc.devRef .tc main_arg3) = m ((c : Thread nD τ).loc main_arg3) := by
  show after hostOps0_2 (after hostOps0_1 (after hostOps0 (W0 m ρ c))) (Proc.devRef .tc main_arg3) = _
  after_results_simp
theorem W3_arg4 : W3 m ρ c (Proc.devRef .tc main_arg4) = m ((c : Thread nD τ).loc main_arg4) := by
  show after hostOps0_2 (after hostOps0_1 (after hostOps0 (W0 m ρ c))) (Proc.devRef .tc main_arg4) = _
  after_results_simp
theorem W3_arg5 : W3 m ρ c (Proc.devRef .tc main_arg5) = m ((c : Thread nD τ).loc main_arg5) := by
  show after hostOps0_2 (after hostOps0_1 (after hostOps0 (W0 m ρ c))) (Proc.devRef .tc main_arg5) = _
  after_results_simp

/-! ### At the first launch's exit -/

theorem W4_v5 : W4 m ρ c (Proc.devRef .tc main_v5) = srcRaw (m ((c : Thread nD τ).loc main_arg1)) :=
  (W4_of_ne m ρ c main_v5 (by decide)).trans (W3_v5 m ρ c)
theorem W4_v6 : W4 m ρ c (Proc.devRef .tc main_v6) = dstRaw (m ((c : Thread nD τ).loc main_arg1)) :=
  (W4_of_ne m ρ c main_v6 (by decide)).trans (W3_v6 m ρ c)
theorem W4_arg3 : W4 m ρ c (Proc.devRef .tc main_arg3) = m ((c : Thread nD τ).loc main_arg3) :=
  (W4_of_ne m ρ c main_arg3 (by decide)).trans (W3_arg3 m ρ c)
theorem W4_arg4 : W4 m ρ c (Proc.devRef .tc main_arg4) = m ((c : Thread nD τ).loc main_arg4) :=
  (W4_of_ne m ρ c main_arg4 (by decide)).trans (W3_arg4 m ρ c)
theorem W4_arg5 : W4 m ρ c (Proc.devRef .tc main_arg5) = m ((c : Thread nD τ).loc main_arg5) :=
  (W4_of_ne m ρ c main_arg5 (by decide)).trans (W3_arg5 m ρ c)
/-- The weight column is an input of the first launch: it leaves it as it found it. -/
theorem W4_v15 : W4 m ρ c (Proc.devRef .tc main_v15) = dinvCol (m ((c : Thread nD τ).loc main_arg1)) :=
  ((W4_arr m ρ c 2).trans (((dat0 (V3 m ρ) c).arrAt_in 2 rfl _).trans (A_eq0 (V3 m ρ) c 2))).trans (W3_v15 m ρ c)
/-- The first launch's output. -/
theorem W4_v16 : W4 m ρ c (Proc.devRef .tc main_v16)
    = hs1 (m ((c : Thread nD τ).loc main_arg0)) (m ((c : Thread nD τ).loc main_arg1)) (m ((c : Thread nD τ).loc main_arg2)) := by
  refine ((W4_arr m ρ c 3).trans (final0 (V3 m ρ) c)).trans ?_
  show prescaled (W3 m ρ c (Proc.devRef .tc main_arg0)) (W3 m ρ c (Proc.devRef .tc main_arg2)) (W3 m ρ c (Proc.devRef .tc main_v15)) = _
  rw [W3_arg0, W3_arg2, W3_v15]
  rfl

/-! ### At the second launch's entry -/

theorem W5_v26 : W5 m ρ c (Proc.devRef .tc main_v26)
    = agg1 (m ((c : Thread nD τ).loc main_arg0)) (m ((c : Thread nD τ).loc main_arg1)) (m ((c : Thread nD τ).loc main_arg2)) := by
  show after hostOps1 (W4 m ρ c) (Proc.devRef .tc main_v26) = _
  after_results_simp
  rw [W4_v16, W4_v5, W4_v6]
  rfl
theorem W5_v27 : W5 m ρ c (Proc.devRef .tc main_v27) = b1row (m ((c : Thread nD τ).loc main_arg3)) := by
  show after hostOps1 (W4 m ρ c) (Proc.devRef .tc main_v27) = _
  after_results_simp
  rw [W4_arg3]
  rfl
theorem W5_v15 : W5 m ρ c (Proc.devRef .tc main_v15) = dinvCol (m ((c : Thread nD τ).loc main_arg1)) := by
  show after hostOps1 (W4 m ρ c) (Proc.devRef .tc main_v15) = _
  after_results_simp
  exact W4_v15 m ρ c
theorem W5_v5 : W5 m ρ c (Proc.devRef .tc main_v5) = srcRaw (m ((c : Thread nD τ).loc main_arg1)) := by
  show after hostOps1 (W4 m ρ c) (Proc.devRef .tc main_v5) = _
  after_results_simp
  exact W4_v5 m ρ c
theorem W5_v6 : W5 m ρ c (Proc.devRef .tc main_v6) = dstRaw (m ((c : Thread nD τ).loc main_arg1)) := by
  show after hostOps1 (W4 m ρ c) (Proc.devRef .tc main_v6) = _
  after_results_simp
  exact W4_v6 m ρ c
theorem W5_arg4 : W5 m ρ c (Proc.devRef .tc main_arg4) = m ((c : Thread nD τ).loc main_arg4) := by
  show after hostOps1 (W4 m ρ c) (Proc.devRef .tc main_arg4) = _
  after_results_simp
  exact W4_arg4 m ρ c
theorem W5_arg5 : W5 m ρ c (Proc.devRef .tc main_arg5) = m ((c : Thread nD τ).loc main_arg5) := by
  show after hostOps1 (W4 m ρ c) (Proc.devRef .tc main_arg5) = _
  after_results_simp
  exact W4_arg5 m ρ c

/-! ### At the second launch's exit -/

theorem W6_v5 : W6 m ρ c (Proc.devRef .tc main_v5) = srcRaw (m ((c : Thread nD τ).loc main_arg1)) :=
  (W6_of_ne m ρ c main_v5 (by decide)).trans (W5_v5 m ρ c)
theorem W6_v6 : W6 m ρ c (Proc.devRef .tc main_v6) = dstRaw (m ((c : Thread nD τ).loc main_arg1)) :=
  (W6_of_ne m ρ c main_v6 (by decide)).trans (W5_v6 m ρ c)
theorem W6_arg5 : W6 m ρ c (Proc.devRef .tc main_arg5) = m ((c : Thread nD τ).loc main_arg5) :=
  (W6_of_ne m ρ c main_arg5 (by decide)).trans (W5_arg5 m ρ c)
/-- The weight column is an input of the second launch too. -/
theorem W6_v15 : W6 m ρ c (Proc.devRef .tc main_v15) = dinvCol (m ((c : Thread nD τ).loc main_arg1)) :=
  ((W6_arr m ρ c 1).trans (((dat1 (V5 m ρ) c).arrAt_in 1 rfl _).trans (A_eq1 (V5 m ρ) c 1))).trans (W5_v15 m ρ c)
/-- The second launch's output. -/
theorem W6_v28 : W6 m ρ c (Proc.devRef .tc main_v28)
    = hs2 (m ((c : Thread nD τ).loc main_arg0)) (m ((c : Thread nD τ).loc main_arg1)) (m ((c : Thread nD τ).loc main_arg2))
        (m ((c : Thread nD τ).loc main_arg3)) (m ((c : Thread nD τ).loc main_arg4)) := by
  refine ((W6_arr m ρ c 4).trans (final1 (V5 m ρ) c)).trans ?_
  show boundary (W5 m ρ c (Proc.devRef .tc main_v26)) (W5 m ρ c (Proc.devRef .tc main_v15)) (W5 m ρ c (Proc.devRef .tc main_v27))
    (W5 m ρ c (Proc.devRef .tc main_arg4)) = _
  rw [W5_v26, W5_v15, W5_v27, W5_arg4]
  rfl

/-! ### At the return -/

/-- THE RESULT BUFFER at the last boundary. -/
theorem W7_v43 : W7 m ρ c (Proc.devRef .tc main_v43)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  show after hostOps2 (W6 m ρ c) (Proc.devRef .tc main_v43) = _
  after_results_simp
  rw [W6_v28, W6_v15, W6_v5, W6_v6, W6_arg5]
  rfl

end Walk

/-! ## The arrays read at an entry -/

section Read

variable (x0 : S100000x165.Idx → EReal) (x1 : IVec SI 32) (x2 : S165x128.Idx → EReal) (x3 : S128.Idx → EReal)
  (x4 : S128x2.Idx → EReal) (x5 : S2.Idx → EReal)

theorem dinvCol_apply (u : Fin 100000) : dinvCol x1 (ix2 u (0 : Fin 1)) = nodeWeight x1 u :=
  Cert.LibRowwise.shapeCast_a_a1_apply (dinvVec x1) shapeCasts_S100000_S100000x1 u 0

theorem b1row_apply (k : Fin 128) : b1row x3 (ix2 (0 : Fin 1) k) = x3 (ix1 k) :=
  shapeCast_a_1a_apply x3 shapeCasts_S128_S1x128 0 k

/-- A column repeated along the rows by the host, read at (p, c). -/
theorem broadcastInDim_a1_ab_apply {α : Type} {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

theorem zero128 (i : S100000x128.Idx) :
    broadcastInDim S100000x128 ![] bcast_S_S100000x128 (constant (F := Ideal) S_ .f32 0x00000000#32) i = (0 : EReal) :=
  (broadcastInDim_apply _ bcast_S_S100000x128 _ i (fun a => a.elim0) (fun a => a.elim0)).trans Ideal.ofBits_zero_f32
theorem zero2 (i : S100000x2.Idx) :
    broadcastInDim S100000x2 ![] bcast_S_S100000x2 (constant (F := Ideal) S_ .f32 0x00000000#32) i = (0 : EReal) :=
  (broadcastInDim_apply _ bcast_S_S100000x2 _ i (fun a => a.elim0) (fun a => a.elim0)).trans Ideal.ofBits_zero_f32

/-- The host's sum of looked-up rows is the plain sum over the landing edges (128 columns). -/
theorem sumRows128_apply (h : S100000x128.Idx → EReal) (u : Fin 100000) (k : Fin 128) :
    sumRows128 h x1 (ix2 u k) = agg (srcNode x1) (landsOn x1) (fun r => h (ix2 r k)) u := by
  unfold sumRows128
  refine (Cert.LibSegmentGather.segmentOfLookup_apply nodes_pos scatter_S100000x128_S1700000x1_S1700000x128_1_0_0_1.wf
    gather_S100000x128_S1700000x1_S1700000x128_1_0_n_n_0_1_1128.wf bcast_S1700000_S1700000x1_0 _ zero128 h
    (normIdx (srcRaw x1)) (dstRaw x1) u k).trans ?_
  unfold agg
  refine congrArg _ (Finset.sum_congr rfl fun e _ => ?_)
  by_cases hl : landsOn x1 e u
  · rw [if_pos hl, if_pos (show (dstRaw x1 (ix1 e)).toInt = (u.val : Int) from hl)]; rfl
  · rw [if_neg hl, if_neg (show ¬ (dstRaw x1 (ix1 e)).toInt = (u.val : Int) from hl)]

/-- The same with 2 columns. -/
theorem sumRows2_apply (h : S100000x2.Idx → EReal) (u : Fin 100000) (q : Fin 2) :
    sumRows2 h x1 (ix2 u q) = agg (srcNode x1) (landsOn x1) (fun r => h (ix2 r q)) u := by
  unfold sumRows2
  refine (Cert.LibSegmentGather.segmentOfLookup_apply nodes_pos scatter_S100000x2_S1700000x1_S1700000x2_1_0_0_1.wf
    gather_S100000x2_S1700000x1_S1700000x2_1_0_n_n_0_1_12.wf bcast_S1700000_S1700000x1_0 _ zero2 h
    (normIdx (srcRaw x1)) (dstRaw x1) u q).trans ?_
  unfold agg
  refine congrArg _ (Finset.sum_congr rfl fun e _ => ?_)
  by_cases hl : landsOn x1 e u
  · rw [if_pos hl, if_pos (show (dstRaw x1 (ix1 e)).toInt = (u.val : Int) from hl)]; rfl
  · rw [if_neg hl, if_neg (show ¬ (dstRaw x1 (ix1 e)).toInt = (u.val : Int) from hl)]

theorem hs1_apply (r : Fin 100000) (k : Fin 128) :
    hs1 x0 x1 x2 (ix2 r k) = scaled1 (nodeWeight x1) (fun u j => x0 (ix2 u j)) (fun j k => x2 (ix2 j k)) r k := by
  show prescaledAt x0 x2 (dinvCol x1) r k = _
  rw [prescaledAt_eq, dinvCol_apply]
  rfl

theorem hs2_apply (r : Fin 100000) (q : Fin 2) :
    hs2 x0 x1 x2 x3 x4 (ix2 r q)
      = scaled2 (nodeWeight x1) (srcNode x1) (landsOn x1) (fun u j => x0 (ix2 u j)) (fun j k => x2 (ix2 j k))
          (fun k => x3 (ix1 k)) (fun k q => x4 (ix2 k q)) r q := by
  show boundaryAt (agg1 x0 x1 x2) (dinvCol x1) (b1row x3) x4 r q = _
  rw [boundaryAt_eq, dinvCol_apply]
  unfold scaled2 hiddenScaled
  refine congrArg _ (Finset.sum_congr rfl fun k _ => ?_)
  rw [b1row_apply]
  unfold agg1
  rw [sumRows128_apply]
  simp only [hs1_apply]

/-- THE RESULT AT AN ENTRY is the pre-scaled network. -/
theorem result_apply (v : Fin 100000) (q : Fin 2) :
    result x0 x1 x2 x3 x4 x5 (ix2 v q) = Cert.Network.scaledAt x0 x1 x2 x3 x4 x5 v q := by
  unfold result Cert.Network.scaledAt netScaled
  rw [addf_apply, mulf_apply, broadcastInDim_a1_ab_apply, dinvCol_apply, Cert.LibColumns.perColumnHost_apply]
  unfold agg2
  rw [sumRows2_apply]
  simp only [hs2_apply]

end Read

/-- THE IDEALIZED KERNEL'S RESULT BUFFER at the last boundary holds the pre-scaled network of the arguments. -/
theorem value (m : (ℓ : Loc nD τ sig) → Buf (Elt Ideal) ℓ) (ρ : Dev nD → PrngReg) (c : Dev nD) (v : Fin 100000) (q : Fin 2) :
    (W7 m ρ c (Proc.devRef .tc main_v43) : S100000x2.Idx → EReal) (ix2 v q)
      = Cert.Network.scaledAt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) v q := by
  rw [W7_v43]
  exact result_apply _ _ _ _ _ _ v q

end Cert.KernelIdeal.HostValue

end
-- ==== Proof.LibHostStack.lean ====
/-
  Stacks of matrices on the host, read at an index by coordinates, for any extents.

  A rank-3 array [K, a, b] is a stack of K matrices. Three layout steps move between the stack and its matrices:
  cutting slab k out of the stack and dropping the unit axis ([K, a, b] → [1, a, b] → [a, b]) reads the stack at
  (k, n, d); laying a matrix out as a stack of one ([a, b] → [1, a, b]) reads the matrix at (n, d) whatever the unit
  coordinate; joining four stacks of one along the leading axis reads piece k. At the exact instance the host's
  matrix product of an M × K by a K × N operand is the textbook sum over the K products.
-/
import Idealize.ShloMosaic.Lib.ValueIdx
import Idealize.ShloMosaic.Lib.ValueLayout
import Idealize.ShloMosaic.Lib.Pipeline.Value
import Idealize.ShloMosaic.Lib.KernelVsHost
import proofs.«135377_j6871947674334_2_alg».proof.Proof.LibMatmul2d

noncomputable section

namespace Cert.LibHostStack

open Idealize.ShloMosaic Idealize.ShloMosaic.ValueIdx
open scoped BigOperators

variable {α : Type}

/-- Slab `k` of a stack, as a matrix: the slice of extent one at offset `k` along the leading axis, its unit axis
    dropped, reads at (n, d) the stack at (k, n, d). -/
theorem slab_apply {K a b : ℕ} (o : ℕ) (y : (⟨3, ![K, a, b]⟩ : Shape).Idx → α)
    (hs : (⟨3, ![K, a, b]⟩ : Shape).Slices ![o, 0, 0] ⟨3, ![1, a, b]⟩)
    (hc : (⟨3, ![1, a, b]⟩ : Shape).ShapeCasts ⟨2, ![a, b]⟩) (k : Fin K) (hk : k.val = o) (n : Fin a) (d : Fin b) :
    shapeCast ⟨2, ![a, b]⟩ (extractStridedSlice ⟨3, ![1, a, b]⟩ ![o, 0, 0] y hs) hc (ix2 n d) = y (ix3 k n d) := by
  refine (shapeCast_1ab_ab_apply _ hc n d).trans ?_
  refine extractStridedSlice_apply _ y hs _ _ fun ax => ?_
  match ax with
  | ⟨0, _⟩ => show k.val = o + 0; omega
  | ⟨1, _⟩ => show n.val = 0 + n.val; omega
  | ⟨2, _⟩ => show d.val = 0 + d.val; omega

/-- A matrix laid out as a stack of one reads, at (u, n, d), the matrix at (n, d). -/
theorem lift_apply {a b : ℕ} (z : (⟨2, ![a, b]⟩ : Shape).Idx → α)
    (h : (⟨2, ![a, b]⟩ : Shape).BroadcastsInDim ⟨3, ![1, a, b]⟩ (![1, 2] : Fin 2 → Fin 3)) (u : Fin 1) (n : Fin a) (d : Fin b) :
    broadcastInDim ⟨3, ![1, a, b]⟩ ![1, 2] h z (ix3 u n d) = z (ix2 n d) := by
  have hn := n.isLt
  have hd := d.isLt
  refine broadcastInDim_apply _ h z _ _ fun ax => ?_
  match ax with
  | ⟨0, _⟩ => show n.val = if a = 1 then 0 else n.val; split_ifs with h1 <;> omega
  | ⟨1, _⟩ => show d.val = if b = 1 then 0 else d.val; split_ifs with h1 <;> omega

/-- Four stacks of one joined along the leading axis read, at (k, n, d), piece `k` at (0, n, d). -/
theorem stack4_apply {a b : ℕ} (p0 p1 p2 p3 : (⟨3, ![1, a, b]⟩ : Shape).Idx → α)
    (h : Shape.Concatenates [(⟨3, ![1, a, b]⟩ : Shape), ⟨3, ![1, a, b]⟩, ⟨3, ![1, a, b]⟩, ⟨3, ![1, a, b]⟩] ⟨3, ![4, a, b]⟩ 0)
    (k : Fin 4) (n : Fin a) (d : Fin b) :
    concatenate ⟨3, ![4, a, b]⟩ 0 [⟨⟨3, ![1, a, b]⟩, p0⟩, ⟨⟨3, ![1, a, b]⟩, p1⟩, ⟨⟨3, ![1, a, b]⟩, p2⟩, ⟨⟨3, ![1, a, b]⟩, p3⟩] h (ix3 k n d)
      = (![p0, p1, p2, p3] k) (ix3 (0 : Fin 1) n d) :=
  concatenate_ofFn_unit_apply (t := ⟨3, ![4, a, b]⟩) (s₁ := ⟨3, ![1, a, b]⟩) (0 : Fin 3) (fun q : Fin 4 => ![p0, p1, p2, p3] q) h rfl rfl
    (ix3 k n d) k rfl (ix3 (0 : Fin 1) n d) (fun bx hb => by
      match bx with
      | ⟨0, _⟩ => exact absurd rfl hb
      | ⟨1, _⟩ => rfl
      | ⟨2, _⟩ => rfl)

/-- The host's product of an M × K by a K × N operand at the exact instance, at (i, j). -/
theorem dotGeneral_plain_apply {M K N : ℕ} {φ₁ φ₂ : FTy} (x : FVec Ideal ⟨2, ![M, K]⟩ φ₁) (y : FVec Ideal ⟨2, ![K, N]⟩ φ₂)
    (i : Fin M) (j : Fin N) :
    Host.dotGeneral (DotDims.plain M K N) none x y (ix2 i j) = ∑ k : Fin K, x (ix2 i k) * y (ix2 k j) := by
  rw [← matmul_zero_eq_dotGeneral]
  exact Cert.LibMatmul2d.matmul_plain_apply x y i j

end Cert.LibHostStack

end
-- ==== Proof.RefValue.lean ====
/-
  The idealized reference's result as a function of its arguments: the normalised network.

  The reference computes each layer as jnp writes a graph convolution: the matrix product, a per-edge factor
  dinv[s] · dinv[d] (two lookups of the weights), the looked-up rows of the product times that factor, a segment
  sum into the destinations, the bias. Read at an entry through the stages of its run:

    * a layer's segment sum is `aggN` of Proof/GraphLaw.lean at the graph of Proof/GraphArrays.lean (the
      reference's index and weight arrays ARE that module's, term for term);
    * the first product is `prod1`, the hidden features `hiddenNormalised`, the second product `prod2`;
    * so the result is `Network.normalisedAt` of the arguments (`value`).
-/
import proofs.«135377_j6871947674334_2_alg».proof.Proof.RefReadP
import proofs.«135377_j6871947674334_2_alg».proof.Proof.GraphArrays
import proofs.«135377_j6871947674334_2_alg».proof.Proof.Network
import proofs.«135377_j6871947674334_2_alg».proof.Proof.LibSegmentGather
import proofs.«135377_j6871947674334_2_alg».proof.Proof.LibHostStack
import proofs.«135377_j6871947674334_2_alg».proof.Proof.LibColumns
import Idealize.ShloMosaic.Lib.ValueLayout
import Idealize.ShloMosaic.Lib.Pipeline.Value

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open Cert.GraphArrays Cert.GraphLaw
open scoped BigOperators

variable (x0 : S100000x165.Idx → EReal) (x1 : IVec SI 32) (x2 : S165x128.Idx → EReal) (x3 : S128.Idx → EReal)
  (x4 : S128x2.Idx → EReal) (x5 : S2.Idx → EReal)

theorem zero128 (i : S100000x128.Idx) : val_main_v41 (F := Ideal) i = (0 : EReal) :=
  (broadcastInDim_apply _ bcast_S_S100000x128 _ i (fun a => a.elim0) (fun a => a.elim0)).trans Ideal.ofBits_zero_f32
theorem zero2 (i : S100000x2.Idx) : val_main_v85 (F := Ideal) i = (0 : EReal) :=
  (broadcastInDim_apply _ bcast_S_S100000x2 _ i (fun a => a.elim0) (fun a => a.elim0)).trans Ideal.ofBits_zero_f32
theorem reluZero (i : S100000x128.Idx) : val_main_call1_v0 (F := Ideal) i = (0 : EReal) :=
  (broadcastInDim_apply _ bcast_S_S100000x128 _ i (fun a => a.elim0) (fun a => a.elim0)).trans Ideal.ofBits_zero_f32

/-- The first product at an entry. -/
theorem prod1_apply (u : Fin 100000) (k : Fin 128) :
    val_main_v4 (F := Ideal) x0 x2 (ix2 u k) = prod1 (fun u j => x0 (ix2 u j)) (fun j k => x2 (ix2 j k)) u k := by
  unfold val_main_v4 prod1
  rw [show dot_S100000x165_S165x128_S100000x128_1_0_0_1_n_n = DotDims.plain 100000 165 128 from rfl]
  exact Cert.LibHostStack.dotGeneral_plain_apply x0 x2 u k

/-- The first layer's segment sum at an entry. -/
theorem layer1_apply (u : Fin 100000) (k : Fin 128) :
    val_main_v43 (F := Ideal) x0 x1 x2 (ix2 u k)
      = aggN (nodeWeight x1) (srcNode x1) (dstNode x1) (landsOn x1) (fun r => val_main_v4 (F := Ideal) x0 x2 (ix2 r k)) u := by
  refine (Cert.LibSegmentGather.normalisedSegment_apply nodes_pos scatter_S100000x128_S1700000x1_S1700000x128_1_0_0_1.wf
    gather_S100000x128_S1700000x1_S1700000x128_1_0_n_n_0_1_1128.wf gather_S100000_S1700000x1_S1700000_n_0_n_n_0_1_1.wf
    bcast_S1700000_S1700000x1_0 bcast_S1700000x1_S1700000x128_0_1 (val_main_v41 (F := Ideal)) zero128
    (val_main_v15 (F := Ideal) x1) (val_main_v4 (F := Ideal) x0 x2) (val_main_v20 (F := Ideal) x1) (val_main_v27 (F := Ideal) x1)
    (val_main_v7 (F := Ideal) x1) u k).trans ?_
  unfold aggN
  refine congrArg _ (Finset.sum_congr rfl fun e _ => ?_)
  by_cases hl : landsOn x1 e u
  · rw [if_pos hl, if_pos (show (val_main_v7 (F := Ideal) x1 (ix1 e)).toInt = (u.val : Int) from hl)]; rfl
  · rw [if_neg hl, if_neg (show ¬ (val_main_v7 (F := Ideal) x1 (ix1 e)).toInt = (u.val : Int) from hl)]

/-- The hidden features at an entry. -/
theorem hidden_apply (u : Fin 100000) (k : Fin 128) :
    val_main_v47 (F := Ideal) x0 x1 x2 x3 (ix2 u k)
      = hiddenNormalised (nodeWeight x1) (srcNode x1) (dstNode x1) (landsOn x1) (fun u j => x0 (ix2 u j)) (fun j k => x2 (ix2 j k))
          (fun k => x3 (ix1 k)) u k := by
  unfold val_main_v47 val_main_v46 val_main_v45 val_main_v44 hiddenNormalised
  rw [maximumf_apply, addf_apply, reluZero, layer1_apply, Cert.LibColumns.perColumnHost_apply]
  simp only [prod1_apply]

/-- The second product at an entry. -/
theorem prod2_apply (u : Fin 100000) (q : Fin 2) :
    val_main_v48 (F := Ideal) x0 x1 x2 x3 x4 (ix2 u q)
      = prod2 (nodeWeight x1) (srcNode x1) (dstNode x1) (landsOn x1) (fun u j => x0 (ix2 u j)) (fun j k => x2 (ix2 j k))
          (fun k => x3 (ix1 k)) (fun k q => x4 (ix2 k q)) u q := by
  unfold val_main_v48 prod2
  rw [show dot_S100000x128_S128x2_S100000x2_1_0_0_1_n_n = DotDims.plain 100000 128 2 from rfl]
  refine (Cert.LibHostStack.dotGeneral_plain_apply (val_main_v47 (F := Ideal) x0 x1 x2 x3) x4 u q).trans ?_
  refine Finset.sum_congr rfl fun k _ => ?_
  rw [hidden_apply]

/-- The second layer's segment sum at an entry. -/
theorem layer2_apply (v : Fin 100000) (q : Fin 2) :
    val_main_v87 (F := Ideal) x0 x1 x2 x3 x4 (ix2 v q)
      = aggN (nodeWeight x1) (srcNode x1) (dstNode x1) (landsOn x1)
          (fun r => val_main_v48 (F := Ideal) x0 x1 x2 x3 x4 (ix2 r q)) v := by
  refine (Cert.LibSegmentGather.normalisedSegment_apply nodes_pos scatter_S100000x2_S1700000x1_S1700000x2_1_0_0_1.wf
    gather_S100000x2_S1700000x1_S1700000x2_1_0_n_n_0_1_12.wf gather_S100000_S1700000x1_S1700000_n_0_n_n_0_1_1.wf
    bcast_S1700000_S1700000x1_0 bcast_S1700000x1_S1700000x2_0_1 (val_main_v85 (F := Ideal)) zero2
    (val_main_v59 (F := Ideal) x1) (val_main_v48 (F := Ideal) x0 x1 x2 x3 x4) (val_main_v64 (F := Ideal) x1) (val_main_v71 (F := Ideal) x1)
    (val_main_v51 (F := Ideal) x1) v q).trans ?_
  unfold aggN
  refine congrArg _ (Finset.sum_congr rfl fun e _ => ?_)
  by_cases hl : landsOn x1 e v
  · rw [if_pos hl, if_pos (show (val_main_v51 (F := Ideal) x1 (ix1 e)).toInt = (v.val : Int) from hl)]; rfl
  · rw [if_neg hl, if_neg (show ¬ (val_main_v51 (F := Ideal) x1 (ix1 e)).toInt = (v.val : Int) from hl)]

/-- THE IDEALIZED REFERENCE'S RESULT AT AN ENTRY is the normalised network. -/
theorem value (v : Fin 100000) (q : Fin 2) :
    val_main_v90 (F := Ideal) x0 x1 x2 x3 x4 x5 (ix2 v q) = Cert.Network.normalisedAt x0 x1 x2 x3 x4 x5 v q := by
  unfold val_main_v90 val_main_v89 val_main_v88 Cert.Network.normalisedAt netNormalised
  rw [addf_apply, layer2_apply, Cert.LibColumns.perColumnHost_apply]
  simp only [prod2_apply]

end Cert.ReferenceIdeal.RefValue

end
-- ==== Proof.LibFiniteDecode.lean ====
/-
  "Every entry has absolute value below +∞" read as "every entry is a real".

  A precondition that an array is finite is printed as an all-reduce by "and" of the comparison |a| < +∞ against the
  word of +∞. On the extended reals |x| < +∞ says x is neither infinity, that is, x is a real. The lemma below takes one
  such conjunct — the all-reduce equal to 1 — to "every entry of `a` is real", for an array of any shape reduced over all
  its axes.
-/
import Idealize.ShloMosaic.PureOps.Ideal
import Idealize.ShloMosaic.Lib.ReduceAll
import Idealize.ShloMosaic.Lib.ValueIdx

noncomputable section

namespace Cert.LibFiniteDecode

open Idealize.ShloMosaic Idealize.ShloMosaic.ValueIdx

/-- The scalar shape has one index. -/
instance : Subsingleton (⟨0, ![]⟩ : Shape).Idx := ⟨fun a b => funext fun d => d.elim0⟩

/-- The word of +∞ denotes the top of the extended reals. -/
theorem ofBits_inf : Ideal.ofBits .f32 0x7F800000#32 = (⊤ : EReal) := by
  simp [Ideal.ofBits, Ideal.ieee]

/-- An extended real whose absolute value is below +∞ is a real. -/
theorem real_of_abs_lt (x : EReal) (h : max x (-x) < ⊤) : ∃ r : ℝ, x = ((r : ℝ) : EReal) := by
  induction x using EReal.rec with
  | bot => simp at h
  | coe r => exact ⟨r, rfl⟩
  | top => simp at h

/-- One conjunct of a finiteness precondition: an all-reduce by "and" of the comparison |a| < +∞ that is 1 makes every
    entry of `a` a real. -/
theorem real_of_all {s : Shape} {axes : List (Fin s.rank)} (a : FVec Ideal s .f32)
    (hb : (⟨0, ![]⟩ : Shape).BroadcastsInDim s ![]) (hred : s.ReducesTo axes ⟨0, ![]⟩) (hu : 0 < (⟨0, ![]⟩ : Shape).numel)
    (e : Host.reduce IntOp.andi (cmpf .olt (Host.absf a) (broadcastInDim s ![] hb (constant ⟨0, ![]⟩ .f32 0x7F800000#32)))
      (constantI ⟨0, ![]⟩ 1 1#1) hred hu ix0 = 1#1) (i : s.Idx) : ∃ r : ℝ, a i = ((r : ℝ) : EReal) := by
  have h := Host.reduce_andi_all _ _ hred hu ix0 e i
  have h' : Ideal.cmp .olt (max (a i) (-(a i))) (Ideal.ofBits .f32 0x7F800000#32) = 1#1 := h
  rw [ofBits_inf] at h'
  refine real_of_abs_lt (a i) ?_
  unfold Ideal.cmp at h'
  by_contra hn
  simp [hn] at h'

end Cert.LibFiniteDecode

end
-- ==== Proof.FiniteInputs.lean ====
/-
  The precondition, decoded: every entry of the features, the two matrices and the first bias is a real number.

  `finite_inputs` is the conjunction, input by input, of "every |entry| is below +∞", each a reduction by `and`
  over the whole array from `true`. A conjunction that is 1 has both conjuncts 1, a reduction by `and` that is 1
  has every element 1, and an extended real whose absolute value is below +∞ is a real number. (The second bias
  is finite too, but nothing here needs it; the integer input is not constrained at all.)
-/
import proofs.«135377_j6871947674334_2_alg».proof.Pre_finite_inputs
import proofs.«135377_j6871947674334_2_alg».proof.Proof.Gen.Pre_finite_inputs
import proofs.«135377_j6871947674334_2_alg».proof.Proof.LibFiniteDecode
import Idealize.ShloMosaic.Lib.Affine

noncomputable section

namespace Cert.Pre_finite_inputs.Decode

open Idealize.ShloMosaic Idealize.ShloMosaic.ValueIdx Cert.Pre_finite_inputs Cert.Pre_finite_inputs.Facts

/-- Under the precondition the float inputs the mathematics multiplies hold real numbers. -/
theorem reals_of_pre (x0 : FVec Ideal S100000x165 .f32) (x1 : IVec S2x1600000 32) (x2 : FVec Ideal S165x128 .f32)
    (x3 : FVec Ideal S128 .f32) (x4 : FVec Ideal S128x2 .f32) (x5 : FVec Ideal S2 .f32)
    (h : Cert.Pre_finite_inputs.fn (F := Ideal) x0 x1 x2 x3 x4 x5 = fun _ => 1#1) :
    (∀ i, ∃ r : ℝ, x0 i = ((r : ℝ) : EReal)) ∧ (∀ i, ∃ r : ℝ, x2 i = ((r : ℝ) : EReal))
      ∧ (∀ i, ∃ r : ℝ, x3 i = ((r : ℝ) : EReal)) ∧ (∀ i, ∃ r : ℝ, x4 i = ((r : ℝ) : EReal)) := by
  have h0 := congrFun h ix0
  dsimp only [Cert.Pre_finite_inputs.fn, Cert.Pre_finite_inputs.fn_part1] at h0
  obtain ⟨h0124, -⟩ := IntOp.andi_eq_one.1 h0
  obtain ⟨h012, h4⟩ := IntOp.andi_eq_one.1 h0124
  obtain ⟨h01, h3⟩ := IntOp.andi_eq_one.1 h012
  obtain ⟨h00, h2⟩ := IntOp.andi_eq_one.1 h01
  exact ⟨Cert.LibFiniteDecode.real_of_all x0 _ _ _ h00, Cert.LibFiniteDecode.real_of_all x2 _ _ _ h2,
    Cert.LibFiniteDecode.real_of_all x3 _ _ _ h3, Cert.LibFiniteDecode.real_of_all x4 _ _ _ h4⟩

end Cert.Pre_finite_inputs.Decode

end
-- ==== Proof.lean ====
/-
  A two-layer graph convolution (GCNConv, ReLU, GCNConv) on 100,000 nodes and 1,600,000 edges plus self-loops:
  the kernel against its jnp reference, over the extended reals.

  THE MATHEMATICS. With weights dinv = deg^(-1/2) (0 where a node has no incoming edge), the reference writes a
  layer as jnp does: every edge e carries the factor dinv[s e] · dinv[d e], multiplies the row (x·W)[s e] by it,
  and the rows are summed into their destinations. The kernel uses that an edge summed into node v has d e = v, so
  dinv[d e] = dinv[v] is a common factor of the sum: it multiplies x·W by dinv row by row inside its first launch,
  sums the plain looked-up rows on the host, and multiplies the sum by dinv again inside the next launch (or, after
  the second layer, on the host). The two are equal because a REAL factor moves across a finite sum of REALS: the
  weights are real whatever the integer input holds, and the features, the matrices and the first bias are real
  by the precondition, so every intermediate array is real (Proof/GraphLaw.lean `scale_agg`, `net_eq`). On
  the extended reals without finiteness the step fails (∞ − ∞), which is where `finite_inputs` is used.
  The integer input is NOT constrained: a source number outside the table is read clamped by both programs alike,
  a destination number outside the table lands nowhere in both, and one inside it is its own normalised, clamped
  row (Proof/GraphArrays.lean `dst_of_lands`).

  THE TWO VALUES. The kernel's result buffer, read off its run boundary by boundary, holds the pre-scaled
  network (Proof/KernelRun.lean, Proof/KernelBlocks.lean, Proof/KernelHost.lean); the reference's result, read off
  its run stage by stage, holds the normalised network (Proof/RefValue.lean). Matrix products in a launch are a
  matrix unit's product into a zero accumulator and on the host a dot_general — both the plain sum here; a change
  of float format is the identity.

  THE CLAIMS. The three frames are the programs' runs with the results dropped; nothing was rewritten by the
  ideal pass, so `preserves` is `True`; `algebraic` puts the two values side by side.
-/
import proofs.«135377_j6871947674334_2_alg».proof.Defs
import proofs.«135377_j6871947674334_2_alg».proof.Proof.Gen.Kernel
import proofs.«135377_j6871947674334_2_alg».proof.Proof.Gen.Kernel.Skeleton
import proofs.«135377_j6871947674334_2_alg».proof.Proof.Gen.Kernel.Launch
import proofs.«135377_j6871947674334_2_alg».proof.Proof.Gen.Kernel.Points
import proofs.«135377_j6871947674334_2_alg».proof.Proof.Gen.Kernel.Frame
import proofs.«135377_j6871947674334_2_alg».proof.Proof.Gen.KernelIdeal
import proofs.«135377_j6871947674334_2_alg».proof.Proof.Gen.KernelIdeal.Skeleton
import proofs.«135377_j6871947674334_2_alg».proof.Proof.Gen.KernelIdeal.Launch
import proofs.«135377_j6871947674334_2_alg».proof.Proof.Gen.KernelIdeal.Points
import proofs.«135377_j6871947674334_2_alg».proof.Proof.Gen.KernelIdeal.Frame
import proofs.«135377_j6871947674334_2_alg».proof.Proof.Gen.ReferenceIdeal
import proofs.«135377_j6871947674334_2_alg».proof.Proof.Gen.Pre_finite_inputs
import proofs.«135377_j6871947674334_2_alg».proof.Proof.RefReadP
import proofs.«135377_j6871947674334_2_alg».proof.Proof.KernelHost
import proofs.«135377_j6871947674334_2_alg».proof.Proof.RefValue
import proofs.«135377_j6871947674334_2_alg».proof.Proof.FiniteInputs
import proofs.«135377_j6871947674334_2_alg».proof.Proof.Network
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no launch: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- The kernel's result buffer and the reference's result hold one function of arguments that agree: the
    pre-scaled and the normalised network, equal on real data. -/
theorem results_agree (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (hpre : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) = fun _ => 1#1) :
    Cert.ReferenceIdeal.Read.val_main_v90 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
    = Cert.KernelIdeal.Gen.W7 m ρ c (Proc.devRef .tc Cert.KernelIdeal.main_v43) := by
  obtain ⟨r0, r2, r3, r4⟩ := Cert.Pre_finite_inputs.Decode.reals_of_pre _ _ _ _ _ _ hpre
  funext i
  obtain ⟨v, q, rfl⟩ : ∃ (v : Fin 100000) (q : Fin 2), i = ix2 v q := ⟨i 0, i 1, eq_ix2 i⟩
  refine (Cert.ReferenceIdeal.RefValue.value _ _ _ _ _ _ v q).trans ?_
  refine ((Cert.Network.scaled_eq_normalised _ _ r0 r2 r3 r4 v q).symm).trans ?_
  exact (Cert.KernelIdeal.HostValue.value m ρ c v q).symm

/-- At the ideal instance both programs run from memories agreeing on the arguments and end with equal results. -/
theorem algebraic : Cert.algebraic_KernelIdeal_ReferenceIdeal := by
  intro m ρ m' ρ' hpre hagree
  refine ⟨fun c => Cert.KernelIdeal.Gen.W7 m ρ c (Proc.devRef .tc Cert.KernelIdeal.main_v43),
    Cert.KernelIdeal.ResultRun.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq]
  obtain ⟨a0, a1, a2, a3, a4, a5⟩ := hagree c
  rw [a0, a1, a2, a3, a4, a5]
  exact results_agree m ρ c (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
